-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1024x64, .f32⟩
  | .local _ .vmem, ⟨9, _⟩ => ⟨S1024x1, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 2, 2], ![false, false, false]⟩

def k0_cond4 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x16x2048x64_S64x2048x64 : S4x16x2048x64.ShapeCasts S64x2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x2048x64.size a
  hwx0_1 : ∀ i : grid0.Coords, EltTy.bits .f32 = 32 ∨ (Rect.block (s := S64x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x2048x64.size a
  hwx0_2 : ∀ i : grid0.Coords, EltTy.bits .f32 = 32 ∨ (Rect.block (s := S64x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S2048x2048 : Shape := ⟨2, ![2048, 2048]⟩
abbrev S4x16x2048 : Shape := ⟨3, ![4, 16, 2048]⟩
abbrev S4x16x2048x1 : Shape := ⟨4, ![4, 16, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048x2048, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S4x16x2048x2048, .i1⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S_, .f32⟩
  | .hbm, ⟨38, _⟩ => ⟨S4x16x2048x1, .f32⟩
  | .hbm, ⟨39, _⟩ => ⟨S4x16x2048x1, .f32⟩
  | .hbm, ⟨40, _⟩ => ⟨S4x16x2048x64, .f32⟩
  | .hbm, ⟨41, _⟩ => ⟨S4x16x2048x64, .f32⟩
  | .hbm, ⟨42, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v12 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x64_0_1_2_3 : S4x16x2048x1.BroadcastsInDim S4x16x2048x64 (![0, 1, 2, 3] : Fin 4 → Fin S4x16x2048x64.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsCases.lean ====
/-
  The four kinds of grid point of the tiled attention kernel, and what the pipeline does with the output window at each.

  The grid is (batch·head, query tile, key tile) = (64, 2, 2), visited in row-major order, so the position t of a point
  determines (query tile, key tile) by t mod 4: 0 ↦ (0, 0), 1 ↦ (0, 1), 2 ↦ (1, 0), 3 ↦ (1, 1).  The body has four
  conditionals: "key tile = 0" (clear the two accumulators), "key tile < query tile" (add an unmasked tile),
  "key tile = query tile" (add the diagonal tile) and "key tile = 1" (divide and store the output block).  Each is
  decided here over the grid in closed form.  The output block is stored only where the key tile is 1; at the other
  points its staging buffer is left alone and not written back.
-/
import proofs.«151636_j51659866636816_2_alg».proof.Proof.Gen.Kernel.Frame
import proofs.«151636_j51659866636816_2_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the grid coordinates -/

/-- "key tile = 0". -/
abbrev isFirst (i : grid0.Coords) : Prop :=
  (Scalar.cmpi .ne (Scalar.extui (Scalar.cmpi .eq (BitVec.ofNat 32 (i 2).val) 0#32)) 0#32) = 1#1
/-- "key tile < query tile". -/
abbrev isBelow (i : grid0.Coords) : Prop :=
  (Scalar.cmpi .ne (Scalar.extui (Scalar.cmpi .slt (BitVec.ofNat 32 (i 2).val) (BitVec.ofNat 32 (i 1).val))) 0#32) = 1#1
/-- "key tile = query tile". -/
abbrev isDiag (i : grid0.Coords) : Prop :=
  (Scalar.cmpi .ne (Scalar.extui (Scalar.cmpi .eq (BitVec.ofNat 32 (i 2).val) (BitVec.ofNat 32 (i 1).val))) 0#32) = 1#1
/-- "key tile = 1", the last one. -/
abbrev isLast (i : grid0.Coords) : Prop := k0_cond4 i = 1#1

theorem isFirst_iff : ∀ t : Fin cfg0.N, isFirst (grid0.coords t) ↔ t.val % 2 = 0 :=
  (by decide +kernel : ∀ t : Fin grid0.N, isFirst (grid0.coords t) ↔ t.val % 2 = 0)
theorem isBelow_iff : ∀ t : Fin cfg0.N, isBelow (grid0.coords t) ↔ t.val % 4 = 2 :=
  (by decide +kernel : ∀ t : Fin grid0.N, isBelow (grid0.coords t) ↔ t.val % 4 = 2)
theorem isDiag_iff : ∀ t : Fin cfg0.N, isDiag (grid0.coords t) ↔ (t.val % 4 = 0 ∨ t.val % 4 = 3) :=
  (by decide +kernel : ∀ t : Fin grid0.N, isDiag (grid0.coords t) ↔ (t.val % 4 = 0 ∨ t.val % 4 = 3))
theorem isLast_iff : ∀ t : Fin cfg0.N, isLast (grid0.coords t) ↔ t.val % 2 = 1 :=
  (by decide +kernel : ∀ t : Fin grid0.N, isLast (grid0.coords t) ↔ t.val % 2 = 1)

/-! ## Where the output window is idle -/

/-- The input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Where the key tile is not the last, the body stores nothing into the output block and the pipeline does not write it back. -/
theorem idle_3 : ∀ t : Fin cfg0.N, ¬isLast (grid0.coords t) → cfg0.idle 3 (grid0.coords t) = true := by decide +kernel
theorem noFlush_3 : ∀ t : Fin cfg0.N, ¬isLast (grid0.coords t) → (cfg0.win 3).flush t = false := by decide +kernel
/-- Where it is the last, the block is stored. -/
theorem live_3 : ∀ t : Fin cfg0.N, isLast (grid0.coords t) → cfg0.idle 3 (grid0.coords t) = false := by decide +kernel

/-! ## The memrefs the body is called with -/

abbrev ms0 (t : Fin cfg0.N) : Memref sig .tc .vmem S1x1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x64 .f32 := win0_3.stage (cfg0.slots t 3)
abbrev hs3 (t : Fin cfg0.N) : (ms3 t).IsWhole := hstage0_3 ((cfg0.slots t 3).cast nbuf0_3)
/-- The two accumulators: the weighted sums (1024 × 64) and the weight sums (1024 × 1). -/
abbrev accM : Memref sig .tc .vmem S1024x64 .f32 := Memref.whole cc0_scratch0
abbrev denM : Memref sig .tc .vmem S1024x1 .f32 := Memref.whole cc0_scratch1

/-- What the launch hands the region beside the windows: the two accumulators at some contents, and the generator register. -/
theorem PhiA0_eq (c : Dev nD) :
    (Pipeline.ΦA spec0 c : sProp 𝕄)
      = iprop(iprop((∃ d, owns (c : Thread nD τ) accM fullShare d) ∗ (∃ d, owns (c : Thread nD τ) denM fullShare d)) ∗ (∃ r, prngReg c r)) := by
  unfold Pipeline.ΦA; rw [scopedRest0_eq]; simp only [accM, denM, owns_whole]; try rfl

end Cert.Kernel.Gen

end
-- ==== Proof.LibWholeStore.lean ====
/-
  A buffer after a last store that covers its whole shape.

  When the last of a run of stores through a view writes the whole shape at offset zero, the buffer reads back as that
  store's payload, whatever was stored before and whatever the buffer held at first.  A load of the whole shape reads
  the contents themselves.  Stated for any view, element type and value type.
-/
import Idealize.ShloMosaic.Lib.Pipeline.FrameBody
import Idealize.ShloMosaic.Lib.Pipeline.Value

namespace Idealize.ShloMosaic.View

variable {sig : RefSig} {κ : Kind} {sp : Space} {S : Shape} {e : EltTy} {Val : EltTy → Type}

/-- After stores of which the last covers the whole shape, the buffer reads as that store's payload. -/
theorem read_writes_whole_last [∀ e, Nonempty (Val e)] (v : View sig κ sp S e) (f : v.ty.Contents Val)
    {off : Fin S.rank → Nat} (h : off = fun _ => 0) (inb : ∀ a, off a + S.size a ≤ S.size a) (w : S.Idx → Val e)
    (L : List (Piece Val S e)) :
    v.read Val (v.writes Val f ((⟨Rect.unit off S.size inb, w⟩ : Piece Val S e) :: L)) = w := by
  rw [read_writes_eq_canon v f _ (fun y => ⟨_, List.mem_cons_self, mem_set_unit_zero h inb y⟩),
    canon_cons_unit_zero h inb]

/-- The zero offsets of a rank-2 shape, however spelt. -/
theorem zero2 : (![0, 0] : Fin 2 → Nat) = fun _ => 0 := by
  funext a; fin_cases a <;> rfl

/-- The zero offsets of a rank-3 shape. -/
theorem zero3 : (![0, 0, 0] : Fin 3 → Nat) = fun _ => 0 := by
  funext a; fin_cases a <;> rfl

end Idealize.ShloMosaic.View
-- ==== Proof.BitsRunFirstDiag.lean ====
/-
  The body at a point where the key tile is the first and is the diagonal one (query tile 0, key tile 0).

  The two accumulators are cleared, then the diagonal tile is added: the weight sums become "zero plus the row sums of the
  masked weights", the weighted sums "zero plus the masked weights times the V tile".  The output block is not touched.
-/
import proofs.«151636_j51659866636816_2_alg».proof.Proof.BitsCases
import proofs.«151636_j51659866636816_2_alg».proof.Proof.LibWholeStore

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles `x0 x1 x2`, the output buffer at `xo` and the accumulators at
    anything, the body ends with the inputs and the output buffer as they were and the accumulators at the diagonal
    tile's sums over cleared accumulators. -/
theorem run_first_diag (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : isFirst i) (h2 : ¬isBelow i) (h3 : isDiag i) (h4 : ¬isLast i)
    (x0 x1 x2 xo : Vec F S1x1024x64 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay6 (k0_pay10 x0 x1 x2 k0_pay1)) ∗ owns (c : Thread nD τ) arg8 fullShare (k0_pay9 x0 x1 k0_pay2)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg3.eq_unread hf0; obtain rfl := harg4.eq_unread hf1; obtain rfl := harg5.eq_unread hf2; obtain rfl := harg6.eq_unread hf3
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.Kernel.Gen

end
-- ==== Proof.BitsRunFirstBelow.lean ====
/-
  The body at a point where the key tile is the first and lies strictly below the diagonal (query tile 1, key tile 0).

  The two accumulators are cleared, then the whole tile is added without a mask.  The output block is not touched.
-/
import proofs.«151636_j51659866636816_2_alg».proof.Proof.BitsCases
import proofs.«151636_j51659866636816_2_alg».proof.Proof.LibWholeStore

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles, the output buffer at `xo` and the accumulators at anything,
    the body ends with the accumulators at the unmasked tile's sums over cleared accumulators. -/
theorem run_first_below (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : isFirst i) (h2 : isBelow i) (h3 : ¬isDiag i) (h4 : ¬isLast i)
    (x0 x1 x2 xo : Vec F S1x1024x64 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay5 x0 x1 x2 k0_pay1) ∗ owns (c : Thread nD τ) arg8 fullShare (k0_pay4 x0 x1 k0_pay2)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg3.eq_unread hf0; obtain rfl := harg4.eq_unread hf1; obtain rfl := harg5.eq_unread hf2; obtain rfl := harg6.eq_unread hf3
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.Kernel.Gen

end
-- ==== Proof.BitsRunDiagLast.lean ====
/-
  The body at a point where the key tile is the diagonal one and the last (query tile 1, key tile 1).

  The diagonal tile is added onto what the accumulators hold, and the output block is stored: the weighted sums divided
  by the weight sums plus the small constant.
-/
import proofs.«151636_j51659866636816_2_alg».proof.Proof.BitsCases
import proofs.«151636_j51659866636816_2_alg».proof.Proof.LibWholeStore

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles, the accumulators at `a` and `s` and the output buffer at
    anything, the body ends with the accumulators advanced by the diagonal tile and the output buffer at their quotient. -/
theorem run_diag_last (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : ¬isFirst i) (h2 : ¬isBelow i) (h3 : isDiag i) (h4 : isLast i)
    (x0 x1 x2 : Vec F S1x1024x64 .f32) (a : Vec F S1024x64 .f32) (s : Vec F S1024x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare a ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare (k0_pay7 (k0_pay6 (k0_pay10 x0 x1 x2 a)) (k0_pay9 x0 x1 s)) ∗ owns (c : Thread nD τ) arg7 fullShare (k0_pay6 (k0_pay10 x0 x1 x2 a)) ∗ owns (c : Thread nD τ) arg8 fullShare (k0_pay9 x0 x1 s)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, Hk⟩
  obtain rfl := harg3.eq_unread hf0; obtain rfl := harg4.eq_unread hf1; obtain rfl := harg5.eq_unread hf2; obtain rfl := harg7.eq_unread hf7; obtain rfl := harg8.eq_unread hf8
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_whole_last _ _ View.zero3]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.Kernel.Gen

end
-- ==== Proof.BitsRunLast.lean ====
/-
  The body at a point where the key tile is the last and lies above the diagonal (query tile 0, key tile 1).

  Nothing is added; the output block is stored: the weighted sums divided by the weight sums plus the small constant.
-/
import proofs.«151636_j51659866636816_2_alg».proof.Proof.BitsCases
import proofs.«151636_j51659866636816_2_alg».proof.Proof.LibWholeStore

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers with the accumulators at `a` and `s` and the output buffer at anything, the body ends
    with the accumulators as they were and the output buffer at their quotient. -/
theorem run_last (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : ¬isFirst i) (h2 : ¬isBelow i) (h3 : ¬isDiag i) (h4 : isLast i)
    (x0 x1 x2 : Vec F S1x1024x64 .f32) (a : Vec F S1024x64 .f32) (s : Vec F S1024x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare a ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare (k0_pay7 a s) ∗ owns (c : Thread nD τ) arg7 fullShare a ∗ owns (c : Thread nD τ) arg8 fullShare s) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, Hk⟩
  obtain rfl := harg3.eq_unread hf0; obtain rfl := harg4.eq_unread hf1; obtain rfl := harg5.eq_unread hf2; obtain rfl := harg7.eq_unread hf7; obtain rfl := harg8.eq_unread hf8
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_whole_last _ _ View.zero3]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  isplitl [H7]
  · iexists _; isplitr; · ipureintro; exact harg7.read_unread _
    iexact H7
  · iexists _; isplitr; · ipureintro; exact harg8.read_unread _
    iexact H8

end Cert.Kernel.Gen

end
-- ==== Proof.BitsFrame.lean ====
/-
  The tiled attention kernel run over its whole grid: what the two accumulators and the output block hold after every
  point, and from it that the program runs to the end, faults nowhere and leaves its arguments unchanged.

  Positions 4n, 4n+1, 4n+2, 4n+3 are the points (query tile, key tile) = (0,0), (0,1), (1,0), (1,1) of one batch·head.
  After position 4n the accumulators hold the diagonal tile's sums of query tile 0; position 4n+1 adds nothing and
  stores the quotient; after 4n+2 they hold the unmasked sums of query tile 1 against key tile 0; position 4n+3 adds the
  diagonal tile of query tile 1 and stores the quotient.  So the accumulators after a point are a closed form of the
  tiles at that point and at the point before; no recursion over the grid is needed.
-/
import proofs.«151636_j51659866636816_2_alg».proof.Proof.BitsRunFirstDiag
import proofs.«151636_j51659866636816_2_alg».proof.Proof.BitsRunFirstBelow
import proofs.«151636_j51659866636816_2_alg».proof.Proof.BitsRunDiagLast
import proofs.«151636_j51659866636816_2_alg».proof.Proof.BitsRunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators hold after each point -/

/-- The point before (the first point is its own). -/
def prevPt (t : Fin cfg0.N) : Fin cfg0.N := ⟨t.val - 1, lt_of_le_of_lt (Nat.sub_le _ _) t.isLt⟩

/-- The q, k and v tiles at a point, as the body's loads see them. -/
abbrev qT (c : Dev nD) (t : Fin cfg0.N) : Vec F S1x1024x64 .f32 := iblk m c 0 t
abbrev kT (c : Dev nD) (t : Fin cfg0.N) : Vec F S1x1024x64 .f32 := iblk m c 1 t
abbrev vT (c : Dev nD) (t : Fin cfg0.N) : Vec F S1x1024x64 .f32 := iblk m c 2 t

/-- The weighted sums after clearing and adding the diagonal tile at `t`. -/
def accDiag (c : Dev nD) (t : Fin cfg0.N) : Vec F S1024x64 .f32 := k0_pay6 (k0_pay10 (qT m c t) (kT m c t) (vT m c t) k0_pay1)
/-- The weight sums after clearing and adding the diagonal tile at `t`. -/
def denDiag (c : Dev nD) (t : Fin cfg0.N) : Vec F S1024x1 .f32 := k0_pay9 (qT m c t) (kT m c t) k0_pay2
/-- The weighted sums after clearing and adding the unmasked tile at `t`. -/
def accBelow (c : Dev nD) (t : Fin cfg0.N) : Vec F S1024x64 .f32 := k0_pay5 (qT m c t) (kT m c t) (vT m c t) k0_pay1
/-- The weight sums after clearing and adding the unmasked tile at `t`. -/
def denBelow (c : Dev nD) (t : Fin cfg0.N) : Vec F S1024x1 .f32 := k0_pay4 (qT m c t) (kT m c t) k0_pay2

/-- The weighted sums after point `t`. -/
def accAt (c : Dev nD) (t : Fin cfg0.N) : Vec F S1024x64 .f32 :=
  if t.val % 4 = 0 then accDiag m c t
  else if t.val % 4 = 1 then accDiag m c (prevPt t)
  else if t.val % 4 = 2 then accBelow m c t
  else k0_pay6 (k0_pay10 (qT m c t) (kT m c t) (vT m c t) (accBelow m c (prevPt t)))

/-- The weight sums after point `t`. -/
def denAt (c : Dev nD) (t : Fin cfg0.N) : Vec F S1024x1 .f32 :=
  if t.val % 4 = 0 then denDiag m c t
  else if t.val % 4 = 1 then denDiag m c (prevPt t)
  else if t.val % 4 = 2 then denBelow m c t
  else k0_pay9 (qT m c t) (kT m c t) (denBelow m c (prevPt t))

/-- The output block as stored at a point where the key tile is the last: the quotient of the accumulators. -/
def outAt (c : Dev nD) (t : Fin cfg0.N) : Vec F S1x1024x64 .f32 := k0_pay7 (accAt m c t) (denAt m c t)

theorem prevPt_val (t : Fin cfg0.N) : (prevPt t).val = t.val - 1 := rfl

/-- At a point where nothing is added the accumulators are what the point before left. -/
theorem accAt_keep (c : Dev nD) (t : Fin cfg0.N) (h : t.val % 4 = 1) : accAt m c t = accAt m c (prevPt t) := by
  have h0 : (prevPt t).val % 4 = 0 := by rw [prevPt_val]; omega
  unfold accAt; rw [if_neg (by omega), if_pos h, if_pos h0]
theorem denAt_keep (c : Dev nD) (t : Fin cfg0.N) (h : t.val % 4 = 1) : denAt m c t = denAt m c (prevPt t) := by
  have h0 : (prevPt t).val % 4 = 0 := by rw [prevPt_val]; omega
  unfold denAt; rw [if_neg (by omega), if_pos h, if_pos h0]
/-- At the second diagonal point the diagonal tile is added onto what the point before left. -/
theorem accAt_last (c : Dev nD) (t : Fin cfg0.N) (h : t.val % 4 = 3) :
    accAt m c t = k0_pay6 (k0_pay10 (qT m c t) (kT m c t) (vT m c t) (accAt m c (prevPt t))) := by
  have h0 : (prevPt t).val % 4 = 2 := by rw [prevPt_val]; omega
  unfold accAt; rw [if_neg (by omega), if_neg (by omega), if_neg (by omega), if_neg (by omega), if_neg (by omega), if_pos h0]
theorem denAt_last (c : Dev nD) (t : Fin cfg0.N) (h : t.val % 4 = 3) :
    denAt m c t = k0_pay9 (qT m c t) (kT m c t) (denAt m c (prevPt t)) := by
  have h0 : (prevPt t).val % 4 = 2 := by rw [prevPt_val]; omega
  unfold denAt; rw [if_neg (by omega), if_neg (by omega), if_neg (by omega), if_neg (by omega), if_neg (by omega), if_pos h0]

/-! ## The invariant between points -/

/-- Before the first point the accumulators hold anything; before a later point they hold what the point before left. -/
def PhiS (c : Dev nD) : (n : ℕ) → n ≤ cfg0.N → sProp 𝕄
  | 0, _ => Pipeline.ΦA spec0 c
  | n + 1, hn => iprop(iprop(owns (c : Thread nD τ) accM fullShare (accAt m c ⟨n, hn⟩) ∗ owns (c : Thread nD τ) denM fullShare (denAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c ⟨n, hn⟩) ∗ owns (c : Thread nD τ) denM fullShare (denAt m c ⟨n, hn⟩)) ∗ (∃ r, prngReg c r)) := rfl

theorem PhiS_pos (c : Dev nD) (t : Fin cfg0.N) (hz : t.val ≠ 0) :
    PhiS m c t.val (Nat.le_of_lt t.isLt) = iprop(iprop(owns (c : Thread nD τ) accM fullShare (accAt m c (prevPt t)) ∗ owns (c : Thread nD τ) denM fullShare (denAt m c (prevPt t))) ∗ (∃ r, prngReg c r)) := by
  obtain ⟨n, hn⟩ := t
  cases n with
  | zero => exact absurd rfl hz
  | succ n => rfl

/-! ## The pipeline's proof data -/

/-- The arrays as the region finds them; after the body each input buffer at its tile and the output buffer at the
    quotient of the accumulators; between points the accumulators at their closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- Each input's current staging buffer holds its tile at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  rw [← after_0 m c t]
theorem leaves_1 (c : Dev nD) (t : Fin cfg0.N) :
    (dats m 0 c).leavesExact 1 t = owns (c : Thread nD τ) (ms1 t) fullShare (iblk m c 1 t) := by
  rw [← after_1 m c t]
theorem leaves_2 (c : Dev nD) (t : Fin cfg0.N) :
    (dats m 0 c).leavesExact 2 t = owns (c : Thread nD τ) (ms2 t) fullShare (iblk m c 2 t) := by
  rw [← after_2 m c t]
theorem leaves_3_live (c : Dev nD) (t : Fin cfg0.N) (h : isLast (grid0.coords t)) :
    (dats m 0 c).leavesExact 3 t = owns (c : Thread nD τ) (ms3 t) fullShare (outAt m c t) := by
  rw [← after_3 m c t]; unfold Dat.leavesExact; rw [live_3 t h]

set_option maxHeartbeats 4000000 in
/-- The body at any point: its position mod 4 says which of the four runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, Phi_castSucc m c t]
  have hN : t.val < 256 := lt_of_lt_of_eq t.isLt (show cfg0.N = 256 from N_0)
  have e1 := isFirst_iff t
  have e2 := isBelow_iff t
  have e3 := isDiag_iff t
  have e4 := isLast_iff t
  rcases (by omega : t.val % 4 = 0 ∨ t.val % 4 = 1 ∨ t.val % 4 = 2 ∨ t.val % 4 = 3) with h | h | h | h
  · -- clear, then the diagonal tile
    have c1 : isFirst (grid0.coords t) := e1.mpr (by omega)
    have c2 : ¬isBelow (grid0.coords t) := fun x => by have := e2.mp x; omega
    have c3 : isDiag (grid0.coords t) := e3.mpr (Or.inl h)
    have c4 : ¬isLast (grid0.coords t) := fun x => by have := e4.mp x; omega
    rw [Dat.leavesExact_idle (dats m 0 c) 3 t (idle_3 t c4) (noFlush_3 t c4)]
    have ea : accAt m c t = accDiag m c t := by unfold accAt; rw [if_pos h]
    have ed : denAt m c t = denDiag m c t := by unfold denAt; rw [if_pos h]
    rw [show (⟨t.val, t.isLt⟩ : Fin cfg0.N) = t from rfl, ea, ed]
    unfold accDiag denDiag
    have hΦ : PhiS m c t.val (Nat.le_of_lt t.isLt) ⊢ (iprop(iprop((∃ d, owns (c : Thread nD τ) accM fullShare d) ∗ (∃ d, owns (c : Thread nD τ) denM fullShare d)) ∗ (∃ r, prngReg c r)) : sProp 𝕄) := by
      by_cases hz : t.val = 0
      · rw [PhiS_zero m c _ _ hz, PhiA0_eq]; try exact Idealize.SL.BI.Entails.refl _
      · rw [PhiS_pos m c t hz]
        iintro ⟨⟨HA, HD⟩, Hg⟩
        isplitr [Hg]
        · isplitl [HA]
          · iexists _; iexact HA
          · iexists _; iexact HD
        · iexact Hg
    iintro ⟨HΦ, Ho, ⟨%d0, H0⟩, ⟨%d1, H1⟩, ⟨%d2, H2⟩, ⟨%d3, H3⟩⟩
    ihave HΦ' := hΦ $$ HΦ
    icases HΦ' with ⟨⟨HA, HD⟩, Hg⟩
    iapply (run_first_diag c (grid0.coords t) _ _ _ _ _ _ _ _ _ _ _ _ c1 c2 c3 c4 (qT m c t) (kT m c t) (vT m c t) _ Set.univ _)
    isplitl [H0]; · iexact H0
    isplitl [H1]; · iexact H1
    isplitl [H2]; · iexact H2
    isplitl [H3]; · iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexists _; iexact H3
  · -- nothing added; the quotient stored
    have c1 : ¬isFirst (grid0.coords t) := fun x => by have := e1.mp x; omega
    have c2 : ¬isBelow (grid0.coords t) := fun x => by have := e2.mp x; omega
    have c3 : ¬isDiag (grid0.coords t) := fun x => by have := e3.mp x; omega
    have c4 : isLast (grid0.coords t) := e4.mpr (by omega)
    have hz : t.val ≠ 0 := by omega
    rw [leaves_3_live m c t c4, PhiS_pos m c t hz]
    rw [show (⟨t.val, t.isLt⟩ : Fin cfg0.N) = t from rfl]
    unfold outAt
    rw [accAt_keep m c t h, denAt_keep m c t h]
    iintro ⟨⟨⟨HA, HD⟩, Hg⟩, Ho, ⟨%d0, H0⟩, ⟨%d1, H1⟩, ⟨%d2, H2⟩, ⟨%d3, H3⟩⟩
    iapply (run_last c (grid0.coords t) _ _ _ _ _ _ _ _ _ _ _ _ c1 c2 c3 c4 (qT m c t) (kT m c t) (vT m c t) _ _ Set.univ _)
    isplitl [H0]; · iexact H0
    isplitl [H1]; · iexact H1
    isplitl [H2]; · iexact H2
    isplitl [H3]; · iexists _; iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexact H3
  · -- clear, then the unmasked tile
    have c1 : isFirst (grid0.coords t) := e1.mpr (by omega)
    have c2 : isBelow (grid0.coords t) := e2.mpr h
    have c3 : ¬isDiag (grid0.coords t) := fun x => by have := e3.mp x; omega
    have c4 : ¬isLast (grid0.coords t) := fun x => by have := e4.mp x; omega
    have hz : t.val ≠ 0 := by omega
    rw [Dat.leavesExact_idle (dats m 0 c) 3 t (idle_3 t c4) (noFlush_3 t c4), PhiS_pos m c t hz]
    have ea : accAt m c t = accBelow m c t := by unfold accAt; rw [if_neg (by omega), if_neg (by omega), if_pos h]
    have ed : denAt m c t = denBelow m c t := by unfold denAt; rw [if_neg (by omega), if_neg (by omega), if_pos h]
    rw [show (⟨t.val, t.isLt⟩ : Fin cfg0.N) = t from rfl, ea, ed]
    unfold accBelow denBelow
    iintro ⟨⟨⟨HA, HD⟩, Hg⟩, Ho, ⟨%d0, H0⟩, ⟨%d1, H1⟩, ⟨%d2, H2⟩, ⟨%d3, H3⟩⟩
    iapply (run_first_below c (grid0.coords t) _ _ _ _ _ _ _ _ _ _ _ _ c1 c2 c3 c4 (qT m c t) (kT m c t) (vT m c t) _ Set.univ _)
    isplitl [H0]; · iexact H0
    isplitl [H1]; · iexact H1
    isplitl [H2]; · iexact H2
    isplitl [H3]; · iexact H3
    isplitl [HA]; · iexists _; iexact HA
    isplitl [HD]; · iexists _; iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexists _; iexact H3
  · -- the diagonal tile added; the quotient stored
    have c1 : ¬isFirst (grid0.coords t) := fun x => by have := e1.mp x; omega
    have c2 : ¬isBelow (grid0.coords t) := fun x => by have := e2.mp x; omega
    have c3 : isDiag (grid0.coords t) := e3.mpr (Or.inr h)
    have c4 : isLast (grid0.coords t) := e4.mpr (by omega)
    have hz : t.val ≠ 0 := by omega
    rw [leaves_3_live m c t c4, PhiS_pos m c t hz]
    rw [show (⟨t.val, t.isLt⟩ : Fin cfg0.N) = t from rfl]
    unfold outAt
    rw [accAt_last m c t h, denAt_last m c t h]
    iintro ⟨⟨⟨HA, HD⟩, Hg⟩, Ho, ⟨%d0, H0⟩, ⟨%d1, H1⟩, ⟨%d2, H2⟩, ⟨%d3, H3⟩⟩
    iapply (run_diag_last c (grid0.coords t) _ _ _ _ _ _ _ _ _ _ _ _ c1 c2 c3 c4 (qT m c t) (kT m c t) (vT m c t) _ _ Set.univ _)
    isplitl [H0]; · iexact H0
    isplitl [H1]; · iexact H1
    isplitl [H2]; · iexact H2
    isplitl [H3]; · iexists _; iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hN : cfg0.N = 256 := N_0
  rw [show (dats m 0 c).Φ (Fin.last cfg0.N) = PhiS m c (255 + 1) (by rw [hN]) from rfl, PhiS_succ, PhiA0_eq]
  iintro ⟨⟨HA, HD⟩, Hg⟩
  isplitr [Hg]
  · isplitl [HA]
    · iexists _; iexact HA
    · iexists _; iexact HD
  · iexact Hg

/-! ## The run and the frame -/

set_option backward.isDefEq.respectTransparency.types false in
/-- Every weakly fair execution of the program terminates, with every array of the pipeline at what the proof data gives
    and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs, faults nowhere, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.IdealCases.lean ====
/-
  The four kinds of grid point of the tiled attention kernel, and what the pipeline does with the output window at each.

  The grid is (batch·head, query tile, key tile) = (64, 2, 2), visited in row-major order, so the position t of a point
  determines (query tile, key tile) by t mod 4: 0 ↦ (0, 0), 1 ↦ (0, 1), 2 ↦ (1, 0), 3 ↦ (1, 1).  The body has four
  conditionals: "key tile = 0" (clear the two accumulators), "key tile < query tile" (add an unmasked tile),
  "key tile = query tile" (add the diagonal tile) and "key tile = 1" (divide and store the output block).  Each is
  decided here over the grid in closed form.  The output block is stored only where the key tile is 1; at the other
  points its staging buffer is left alone and not written back.
-/
import proofs.«151636_j51659866636816_2_alg».proof.Proof.Gen.KernelIdeal.Frame
import proofs.«151636_j51659866636816_2_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions, from the grid coordinates -/

/-- "key tile = 0". -/
abbrev isFirst (i : grid0.Coords) : Prop :=
  (Scalar.cmpi .ne (Scalar.extui (Scalar.cmpi .eq (BitVec.ofNat 32 (i 2).val) 0#32)) 0#32) = 1#1
/-- "key tile < query tile". -/
abbrev isBelow (i : grid0.Coords) : Prop :=
  (Scalar.cmpi .ne (Scalar.extui (Scalar.cmpi .slt (BitVec.ofNat 32 (i 2).val) (BitVec.ofNat 32 (i 1).val))) 0#32) = 1#1
/-- "key tile = query tile". -/
abbrev isDiag (i : grid0.Coords) : Prop :=
  (Scalar.cmpi .ne (Scalar.extui (Scalar.cmpi .eq (BitVec.ofNat 32 (i 2).val) (BitVec.ofNat 32 (i 1).val))) 0#32) = 1#1
/-- "key tile = 1", the last one. -/
abbrev isLast (i : grid0.Coords) : Prop := k0_cond4 i = 1#1

theorem isFirst_iff : ∀ t : Fin cfg0.N, isFirst (grid0.coords t) ↔ t.val % 2 = 0 :=
  (by decide +kernel : ∀ t : Fin grid0.N, isFirst (grid0.coords t) ↔ t.val % 2 = 0)
theorem isBelow_iff : ∀ t : Fin cfg0.N, isBelow (grid0.coords t) ↔ t.val % 4 = 2 :=
  (by decide +kernel : ∀ t : Fin grid0.N, isBelow (grid0.coords t) ↔ t.val % 4 = 2)
theorem isDiag_iff : ∀ t : Fin cfg0.N, isDiag (grid0.coords t) ↔ (t.val % 4 = 0 ∨ t.val % 4 = 3) :=
  (by decide +kernel : ∀ t : Fin grid0.N, isDiag (grid0.coords t) ↔ (t.val % 4 = 0 ∨ t.val % 4 = 3))
theorem isLast_iff : ∀ t : Fin cfg0.N, isLast (grid0.coords t) ↔ t.val % 2 = 1 :=
  (by decide +kernel : ∀ t : Fin grid0.N, isLast (grid0.coords t) ↔ t.val % 2 = 1)

/-! ## Where the output window is idle -/

/-- The input windows are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Where the key tile is not the last, the body stores nothing into the output block and the pipeline does not write it back. -/
theorem idle_3 : ∀ t : Fin cfg0.N, ¬isLast (grid0.coords t) → cfg0.idle 3 (grid0.coords t) = true := by decide +kernel
theorem noFlush_3 : ∀ t : Fin cfg0.N, ¬isLast (grid0.coords t) → (cfg0.win 3).flush t = false := by decide +kernel
/-- Where it is the last, the block is stored. -/
theorem live_3 : ∀ t : Fin cfg0.N, isLast (grid0.coords t) → cfg0.idle 3 (grid0.coords t) = false := by decide +kernel

/-! ## The memrefs the body is called with -/

abbrev ms0 (t : Fin cfg0.N) : Memref sig .tc .vmem S1x1024x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x64 .f32 := win0_3.stage (cfg0.slots t 3)
abbrev hs3 (t : Fin cfg0.N) : (ms3 t).IsWhole := hstage0_3 ((cfg0.slots t 3).cast nbuf0_3)
/-- The two accumulators: the weighted sums (1024 × 64) and the weight sums (1024 × 1). -/
abbrev accM : Memref sig .tc .vmem S1024x64 .f32 := Memref.whole cc0_scratch0
abbrev denM : Memref sig .tc .vmem S1024x1 .f32 := Memref.whole cc0_scratch1

/-- What the launch hands the region beside the windows: the two accumulators at some contents, and the generator register. -/
theorem PhiA0_eq (c : Dev nD) :
    (Pipeline.ΦA spec0 c : sProp 𝕄)
      = iprop(iprop((∃ d, owns (c : Thread nD τ) accM fullShare d) ∗ (∃ d, owns (c : Thread nD τ) denM fullShare d)) ∗ (∃ r, prngReg c r)) := by
  unfold Pipeline.ΦA; rw [scopedRest0_eq]; simp only [accM, denM, owns_whole]; try rfl

end Cert.KernelIdeal.Gen

end
-- ==== Proof.IdealRunFirstDiag.lean ====
/-
  The body at a point where the key tile is the first and is the diagonal one (query tile 0, key tile 0).

  The two accumulators are cleared, then the diagonal tile is added: the weight sums become "zero plus the row sums of the
  masked weights", the weighted sums "zero plus the masked weights times the V tile".  The output block is not touched.
-/
import proofs.«151636_j51659866636816_2_alg».proof.Proof.IdealCases
import proofs.«151636_j51659866636816_2_alg».proof.Proof.LibWholeStore

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles `x0 x1 x2`, the output buffer at `xo` and the accumulators at
    anything, the body ends with the inputs and the output buffer as they were and the accumulators at the diagonal
    tile's sums over cleared accumulators. -/
theorem run_first_diag (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : isFirst i) (h2 : ¬isBelow i) (h3 : isDiag i) (h4 : ¬isLast i)
    (x0 x1 x2 xo : Vec F S1x1024x64 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay6 (k0_pay10 x0 x1 x2 k0_pay1)) ∗ owns (c : Thread nD τ) arg8 fullShare (k0_pay9 x0 x1 k0_pay2)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg3.eq_unread hf0; obtain rfl := harg4.eq_unread hf1; obtain rfl := harg5.eq_unread hf2; obtain rfl := harg6.eq_unread hf3
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.KernelIdeal.Gen

end
-- ==== Proof.IdealRunFirstBelow.lean ====
/-
  The body at a point where the key tile is the first and lies strictly below the diagonal (query tile 1, key tile 0).

  The two accumulators are cleared, then the whole tile is added without a mask.  The output block is not touched.
-/
import proofs.«151636_j51659866636816_2_alg».proof.Proof.IdealCases
import proofs.«151636_j51659866636816_2_alg».proof.Proof.LibWholeStore

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles, the output buffer at `xo` and the accumulators at anything,
    the body ends with the accumulators at the unmasked tile's sums over cleared accumulators. -/
theorem run_first_below (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : isFirst i) (h2 : isBelow i) (h3 : ¬isDiag i) (h4 : ¬isLast i)
    (x0 x1 x2 xo : Vec F S1x1024x64 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare (k0_pay5 x0 x1 x2 k0_pay1) ∗ owns (c : Thread nD τ) arg8 fullShare (k0_pay4 x0 x1 k0_pay2)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, Hk⟩
  obtain rfl := harg3.eq_unread hf0; obtain rfl := harg4.eq_unread hf1; obtain rfl := harg5.eq_unread hf2; obtain rfl := harg6.eq_unread hf3
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.KernelIdeal.Gen

end
-- ==== Proof.IdealRunDiagLast.lean ====
/-
  The body at a point where the key tile is the diagonal one and the last (query tile 1, key tile 1).

  The diagonal tile is added onto what the accumulators hold, and the output block is stored: the weighted sums divided
  by the weight sums plus the small constant.
-/
import proofs.«151636_j51659866636816_2_alg».proof.Proof.IdealCases
import proofs.«151636_j51659866636816_2_alg».proof.Proof.LibWholeStore

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers holding the q, k, v tiles, the accumulators at `a` and `s` and the output buffer at
    anything, the body ends with the accumulators advanced by the diagonal tile and the output buffer at their quotient. -/
theorem run_diag_last (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : ¬isFirst i) (h2 : ¬isBelow i) (h3 : isDiag i) (h4 : isLast i)
    (x0 x1 x2 : Vec F S1x1024x64 .f32) (a : Vec F S1024x64 .f32) (s : Vec F S1024x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare a ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare (k0_pay7 (k0_pay6 (k0_pay10 x0 x1 x2 a)) (k0_pay9 x0 x1 s)) ∗ owns (c : Thread nD τ) arg7 fullShare (k0_pay6 (k0_pay10 x0 x1 x2 a)) ∗ owns (c : Thread nD τ) arg8 fullShare (k0_pay9 x0 x1 s)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, Hk⟩
  obtain rfl := harg3.eq_unread hf0; obtain rfl := harg4.eq_unread hf1; obtain rfl := harg5.eq_unread hf2; obtain rfl := harg7.eq_unread hf7; obtain rfl := harg8.eq_unread hf8
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_whole_last _ _ View.zero3]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  isplitl [H7]
  · iexists _; isplitr
    swap; · iexact H7
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  · iexists _; isplitr
    swap; · iexact H8
    ipureintro
    sl_unfold_words
    rw [View.read_writes_whole_last _ _ View.zero2]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]

end Cert.KernelIdeal.Gen

end
-- ==== Proof.IdealRunLast.lean ====
/-
  The body at a point where the key tile is the last and lies above the diagonal (query tile 0, key tile 1).

  Nothing is added; the output block is stored: the weighted sums divided by the weight sums plus the small constant.
-/
import proofs.«151636_j51659866636816_2_alg».proof.Proof.IdealCases
import proofs.«151636_j51659866636816_2_alg».proof.Proof.LibWholeStore

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- Run on whole staging buffers with the accumulators at `a` and `s` and the output buffer at anything, the body ends
    with the accumulators as they were and the output buffer at their quotient. -/
theorem run_last (c : Dev nD) (i : grid0.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x64 .f32) (harg7 : arg7.IsWhole) (arg8 : Memref sig .tc .vmem S1024x1 .f32) (harg8 : arg8.IsWhole)
    (h1 : ¬isFirst i) (h2 : ¬isBelow i) (h3 : ¬isDiag i) (h4 : isLast i)
    (x0 x1 x2 : Vec F S1x1024x64 .f32) (a : Vec F S1024x64 .f32) (s : Vec F S1024x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare a ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare (k0_pay7 a s) ∗ owns (c : Thread nD τ) arg7 fullShare a ∗ owns (c : Thread nD τ) arg8 fullShare s) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, Hk⟩
  obtain rfl := harg3.eq_unread hf0; obtain rfl := harg4.eq_unread hf1; obtain rfl := harg5.eq_unread hf2; obtain rfl := harg7.eq_unread hf7; obtain rfl := harg8.eq_unread hf8
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_whole_last _ _ View.zero3]
    simp only [View.readAt_eq_ld, harg3.read_unread, harg4.read_unread, harg5.read_unread, harg7.read_unread, harg8.read_unread,
      View.ld_unit_zero (S := S1x1024x64) View.zero3, View.ld_unit_zero (S := S1024x64) View.zero2, View.ld_unit_zero (S := S1024x1) View.zero2,
      View.readCov_unit_zero (S := S1024x64) _ View.zero2, View.readCov_unit_zero (S := S1024x1) _ View.zero2]
  isplitl [H7]
  · iexists _; isplitr; · ipureintro; exact harg7.read_unread _
    iexact H7
  · iexists _; isplitr; · ipureintro; exact harg8.read_unread _
    iexact H8

end Cert.KernelIdeal.Gen

end
-- ==== Proof.IdealFrame.lean ====
/-
  The tiled attention kernel run over its whole grid: what the two accumulators and the output block hold after every
  point, and from it that the program runs to the end, faults nowhere and leaves its arguments unchanged.

  Positions 4n, 4n+1, 4n+2, 4n+3 are the points (query tile, key tile) = (0,0), (0,1), (1,0), (1,1) of one batch·head.
  After position 4n the accumulators hold the diagonal tile's sums of query tile 0; position 4n+1 adds nothing and
  stores the quotient; after 4n+2 they hold the unmasked sums of query tile 1 against key tile 0; position 4n+3 adds the
  diagonal tile of query tile 1 and stores the quotient.  So the accumulators after a point are a closed form of the
  tiles at that point and at the point before; no recursion over the grid is needed.
-/
import proofs.«151636_j51659866636816_2_alg».proof.Proof.IdealRunFirstDiag
import proofs.«151636_j51659866636816_2_alg».proof.Proof.IdealRunFirstBelow
import proofs.«151636_j51659866636816_2_alg».proof.Proof.IdealRunDiagLast
import proofs.«151636_j51659866636816_2_alg».proof.Proof.IdealRunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators hold after each point -/

/-- The point before (the first point is its own). -/
def prevPt (t : Fin cfg0.N) : Fin cfg0.N := ⟨t.val - 1, lt_of_le_of_lt (Nat.sub_le _ _) t.isLt⟩

/-- The q, k and v tiles at a point, as the body's loads see them. -/
abbrev qT (c : Dev nD) (t : Fin cfg0.N) : Vec F S1x1024x64 .f32 := iblk m c 0 t
abbrev kT (c : Dev nD) (t : Fin cfg0.N) : Vec F S1x1024x64 .f32 := iblk m c 1 t
abbrev vT (c : Dev nD) (t : Fin cfg0.N) : Vec F S1x1024x64 .f32 := iblk m c 2 t

/-- The weighted sums after clearing and adding the diagonal tile at `t`. -/
def accDiag (c : Dev nD) (t : Fin cfg0.N) : Vec F S1024x64 .f32 := k0_pay6 (k0_pay10 (qT m c t) (kT m c t) (vT m c t) k0_pay1)
/-- The weight sums after clearing and adding the diagonal tile at `t`. -/
def denDiag (c : Dev nD) (t : Fin cfg0.N) : Vec F S1024x1 .f32 := k0_pay9 (qT m c t) (kT m c t) k0_pay2
/-- The weighted sums after clearing and adding the unmasked tile at `t`. -/
def accBelow (c : Dev nD) (t : Fin cfg0.N) : Vec F S1024x64 .f32 := k0_pay5 (qT m c t) (kT m c t) (vT m c t) k0_pay1
/-- The weight sums after clearing and adding the unmasked tile at `t`. -/
def denBelow (c : Dev nD) (t : Fin cfg0.N) : Vec F S1024x1 .f32 := k0_pay4 (qT m c t) (kT m c t) k0_pay2

/-- The weighted sums after point `t`. -/
def accAt (c : Dev nD) (t : Fin cfg0.N) : Vec F S1024x64 .f32 :=
  if t.val % 4 = 0 then accDiag m c t
  else if t.val % 4 = 1 then accDiag m c (prevPt t)
  else if t.val % 4 = 2 then accBelow m c t
  else k0_pay6 (k0_pay10 (qT m c t) (kT m c t) (vT m c t) (accBelow m c (prevPt t)))

/-- The weight sums after point `t`. -/
def denAt (c : Dev nD) (t : Fin cfg0.N) : Vec F S1024x1 .f32 :=
  if t.val % 4 = 0 then denDiag m c t
  else if t.val % 4 = 1 then denDiag m c (prevPt t)
  else if t.val % 4 = 2 then denBelow m c t
  else k0_pay9 (qT m c t) (kT m c t) (denBelow m c (prevPt t))

/-- The output block as stored at a point where the key tile is the last: the quotient of the accumulators. -/
def outAt (c : Dev nD) (t : Fin cfg0.N) : Vec F S1x1024x64 .f32 := k0_pay7 (accAt m c t) (denAt m c t)

theorem prevPt_val (t : Fin cfg0.N) : (prevPt t).val = t.val - 1 := rfl

/-- At a point where nothing is added the accumulators are what the point before left. -/
theorem accAt_keep (c : Dev nD) (t : Fin cfg0.N) (h : t.val % 4 = 1) : accAt m c t = accAt m c (prevPt t) := by
  have h0 : (prevPt t).val % 4 = 0 := by rw [prevPt_val]; omega
  unfold accAt; rw [if_neg (by omega), if_pos h, if_pos h0]
theorem denAt_keep (c : Dev nD) (t : Fin cfg0.N) (h : t.val % 4 = 1) : denAt m c t = denAt m c (prevPt t) := by
  have h0 : (prevPt t).val % 4 = 0 := by rw [prevPt_val]; omega
  unfold denAt; rw [if_neg (by omega), if_pos h, if_pos h0]
/-- At the second diagonal point the diagonal tile is added onto what the point before left. -/
theorem accAt_last (c : Dev nD) (t : Fin cfg0.N) (h : t.val % 4 = 3) :
    accAt m c t = k0_pay6 (k0_pay10 (qT m c t) (kT m c t) (vT m c t) (accAt m c (prevPt t))) := by
  have h0 : (prevPt t).val % 4 = 2 := by rw [prevPt_val]; omega
  unfold accAt; rw [if_neg (by omega), if_neg (by omega), if_neg (by omega), if_neg (by omega), if_neg (by omega), if_pos h0]
theorem denAt_last (c : Dev nD) (t : Fin cfg0.N) (h : t.val % 4 = 3) :
    denAt m c t = k0_pay9 (qT m c t) (kT m c t) (denAt m c (prevPt t)) := by
  have h0 : (prevPt t).val % 4 = 2 := by rw [prevPt_val]; omega
  unfold denAt; rw [if_neg (by omega), if_neg (by omega), if_neg (by omega), if_neg (by omega), if_neg (by omega), if_pos h0]

/-! ## The invariant between points -/

/-- Before the first point the accumulators hold anything; before a later point they hold what the point before left. -/
def PhiS (c : Dev nD) : (n : ℕ) → n ≤ cfg0.N → sProp 𝕄
  | 0, _ => Pipeline.ΦA spec0 c
  | n + 1, hn => iprop(iprop(owns (c : Thread nD τ) accM fullShare (accAt m c ⟨n, hn⟩) ∗ owns (c : Thread nD τ) denM fullShare (denAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c ⟨n, hn⟩) ∗ owns (c : Thread nD τ) denM fullShare (denAt m c ⟨n, hn⟩)) ∗ (∃ r, prngReg c r)) := rfl

theorem PhiS_pos (c : Dev nD) (t : Fin cfg0.N) (hz : t.val ≠ 0) :
    PhiS m c t.val (Nat.le_of_lt t.isLt) = iprop(iprop(owns (c : Thread nD τ) accM fullShare (accAt m c (prevPt t)) ∗ owns (c : Thread nD τ) denM fullShare (denAt m c (prevPt t))) ∗ (∃ r, prngReg c r)) := by
  obtain ⟨n, hn⟩ := t
  cases n with
  | zero => exact absurd rfl hz
  | succ n => rfl

/-! ## The pipeline's proof data -/

/-- The arrays as the region finds them; after the body each input buffer at its tile and the output buffer at the
    quotient of the accumulators; between points the accumulators at their closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- Each input's current staging buffer holds its tile at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  rw [← after_0 m c t]
theorem leaves_1 (c : Dev nD) (t : Fin cfg0.N) :
    (dats m 0 c).leavesExact 1 t = owns (c : Thread nD τ) (ms1 t) fullShare (iblk m c 1 t) := by
  rw [← after_1 m c t]
theorem leaves_2 (c : Dev nD) (t : Fin cfg0.N) :
    (dats m 0 c).leavesExact 2 t = owns (c : Thread nD τ) (ms2 t) fullShare (iblk m c 2 t) := by
  rw [← after_2 m c t]
theorem leaves_3_live (c : Dev nD) (t : Fin cfg0.N) (h : isLast (grid0.coords t)) :
    (dats m 0 c).leavesExact 3 t = owns (c : Thread nD τ) (ms3 t) fullShare (outAt m c t) := by
  rw [← after_3 m c t]; unfold Dat.leavesExact; rw [live_3 t h]

set_option maxHeartbeats 4000000 in
/-- The body at any point: its position mod 4 says which of the four runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, Phi_castSucc m c t]
  have hN : t.val < 256 := lt_of_lt_of_eq t.isLt (show cfg0.N = 256 from N_0)
  have e1 := isFirst_iff t
  have e2 := isBelow_iff t
  have e3 := isDiag_iff t
  have e4 := isLast_iff t
  rcases (by omega : t.val % 4 = 0 ∨ t.val % 4 = 1 ∨ t.val % 4 = 2 ∨ t.val % 4 = 3) with h | h | h | h
  · -- clear, then the diagonal tile
    have c1 : isFirst (grid0.coords t) := e1.mpr (by omega)
    have c2 : ¬isBelow (grid0.coords t) := fun x => by have := e2.mp x; omega
    have c3 : isDiag (grid0.coords t) := e3.mpr (Or.inl h)
    have c4 : ¬isLast (grid0.coords t) := fun x => by have := e4.mp x; omega
    rw [Dat.leavesExact_idle (dats m 0 c) 3 t (idle_3 t c4) (noFlush_3 t c4)]
    have ea : accAt m c t = accDiag m c t := by unfold accAt; rw [if_pos h]
    have ed : denAt m c t = denDiag m c t := by unfold denAt; rw [if_pos h]
    rw [show (⟨t.val, t.isLt⟩ : Fin cfg0.N) = t from rfl, ea, ed]
    unfold accDiag denDiag
    have hΦ : PhiS m c t.val (Nat.le_of_lt t.isLt) ⊢ (iprop(iprop((∃ d, owns (c : Thread nD τ) accM fullShare d) ∗ (∃ d, owns (c : Thread nD τ) denM fullShare d)) ∗ (∃ r, prngReg c r)) : sProp 𝕄) := by
      by_cases hz : t.val = 0
      · rw [PhiS_zero m c _ _ hz, PhiA0_eq]; try exact Idealize.SL.BI.Entails.refl _
      · rw [PhiS_pos m c t hz]
        iintro ⟨⟨HA, HD⟩, Hg⟩
        isplitr [Hg]
        · isplitl [HA]
          · iexists _; iexact HA
          · iexists _; iexact HD
        · iexact Hg
    iintro ⟨HΦ, Ho, ⟨%d0, H0⟩, ⟨%d1, H1⟩, ⟨%d2, H2⟩, ⟨%d3, H3⟩⟩
    ihave HΦ' := hΦ $$ HΦ
    icases HΦ' with ⟨⟨HA, HD⟩, Hg⟩
    iapply (run_first_diag c (grid0.coords t) _ _ _ _ _ _ _ _ _ _ _ _ c1 c2 c3 c4 (qT m c t) (kT m c t) (vT m c t) _ Set.univ _)
    isplitl [H0]; · iexact H0
    isplitl [H1]; · iexact H1
    isplitl [H2]; · iexact H2
    isplitl [H3]; · iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexists _; iexact H3
  · -- nothing added; the quotient stored
    have c1 : ¬isFirst (grid0.coords t) := fun x => by have := e1.mp x; omega
    have c2 : ¬isBelow (grid0.coords t) := fun x => by have := e2.mp x; omega
    have c3 : ¬isDiag (grid0.coords t) := fun x => by have := e3.mp x; omega
    have c4 : isLast (grid0.coords t) := e4.mpr (by omega)
    have hz : t.val ≠ 0 := by omega
    rw [leaves_3_live m c t c4, PhiS_pos m c t hz]
    rw [show (⟨t.val, t.isLt⟩ : Fin cfg0.N) = t from rfl]
    unfold outAt
    rw [accAt_keep m c t h, denAt_keep m c t h]
    iintro ⟨⟨⟨HA, HD⟩, Hg⟩, Ho, ⟨%d0, H0⟩, ⟨%d1, H1⟩, ⟨%d2, H2⟩, ⟨%d3, H3⟩⟩
    iapply (run_last c (grid0.coords t) _ _ _ _ _ _ _ _ _ _ _ _ c1 c2 c3 c4 (qT m c t) (kT m c t) (vT m c t) _ _ Set.univ _)
    isplitl [H0]; · iexact H0
    isplitl [H1]; · iexact H1
    isplitl [H2]; · iexact H2
    isplitl [H3]; · iexists _; iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexact H3
  · -- clear, then the unmasked tile
    have c1 : isFirst (grid0.coords t) := e1.mpr (by omega)
    have c2 : isBelow (grid0.coords t) := e2.mpr h
    have c3 : ¬isDiag (grid0.coords t) := fun x => by have := e3.mp x; omega
    have c4 : ¬isLast (grid0.coords t) := fun x => by have := e4.mp x; omega
    have hz : t.val ≠ 0 := by omega
    rw [Dat.leavesExact_idle (dats m 0 c) 3 t (idle_3 t c4) (noFlush_3 t c4), PhiS_pos m c t hz]
    have ea : accAt m c t = accBelow m c t := by unfold accAt; rw [if_neg (by omega), if_neg (by omega), if_pos h]
    have ed : denAt m c t = denBelow m c t := by unfold denAt; rw [if_neg (by omega), if_neg (by omega), if_pos h]
    rw [show (⟨t.val, t.isLt⟩ : Fin cfg0.N) = t from rfl, ea, ed]
    unfold accBelow denBelow
    iintro ⟨⟨⟨HA, HD⟩, Hg⟩, Ho, ⟨%d0, H0⟩, ⟨%d1, H1⟩, ⟨%d2, H2⟩, ⟨%d3, H3⟩⟩
    iapply (run_first_below c (grid0.coords t) _ _ _ _ _ _ _ _ _ _ _ _ c1 c2 c3 c4 (qT m c t) (kT m c t) (vT m c t) _ Set.univ _)
    isplitl [H0]; · iexact H0
    isplitl [H1]; · iexact H1
    isplitl [H2]; · iexact H2
    isplitl [H3]; · iexact H3
    isplitl [HA]; · iexists _; iexact HA
    isplitl [HD]; · iexists _; iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexists _; iexact H3
  · -- the diagonal tile added; the quotient stored
    have c1 : ¬isFirst (grid0.coords t) := fun x => by have := e1.mp x; omega
    have c2 : ¬isBelow (grid0.coords t) := fun x => by have := e2.mp x; omega
    have c3 : isDiag (grid0.coords t) := e3.mpr (Or.inr h)
    have c4 : isLast (grid0.coords t) := e4.mpr (by omega)
    have hz : t.val ≠ 0 := by omega
    rw [leaves_3_live m c t c4, PhiS_pos m c t hz]
    rw [show (⟨t.val, t.isLt⟩ : Fin cfg0.N) = t from rfl]
    unfold outAt
    rw [accAt_last m c t h, denAt_last m c t h]
    iintro ⟨⟨⟨HA, HD⟩, Hg⟩, Ho, ⟨%d0, H0⟩, ⟨%d1, H1⟩, ⟨%d2, H2⟩, ⟨%d3, H3⟩⟩
    iapply (run_diag_last c (grid0.coords t) _ _ _ _ _ _ _ _ _ _ _ _ c1 c2 c3 c4 (qT m c t) (kT m c t) (vT m c t) _ _ Set.univ _)
    isplitl [H0]; · iexact H0
    isplitl [H1]; · iexact H1
    isplitl [H2]; · iexact H2
    isplitl [H3]; · iexists _; iexact H3
    isplitl [HA]; · iexact HA
    isplitl [HD]; · iexact HD
    iintro ⟨H0, H1, H2, H3, HA, HD⟩
    isplitl [HA HD Hg]
    · isplitr [Hg]
      · isplitl [HA]; · iexact HA
        iexact HD
      · iexact Hg
    isplitl [Ho]; · iexact Ho
    isplitl [H0]; · iexact H0
    isplitl [H1]; · iexact H1
    isplitl [H2]; · iexact H2
    iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hN : cfg0.N = 256 := N_0
  rw [show (dats m 0 c).Φ (Fin.last cfg0.N) = PhiS m c (255 + 1) (by rw [hN]) from rfl, PhiS_succ, PhiA0_eq]
  iintro ⟨⟨HA, HD⟩, Hg⟩
  isplitr [Hg]
  · isplitl [HA]
    · iexists _; iexact HA
    · iexists _; iexact HD
  · iexact Hg

/-! ## The run and the frame -/

set_option backward.isDefEq.respectTransparency.types false in
/-- Every weakly fair execution of the program terminates, with every array of the pipeline at what the proof data gives
    and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs, faults nowhere, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.LibHeadReshape.lean ====
/-
  Two leading axes flattened into one, and back.

  A row-major array of shape [a, b, c, d] reshaped to [n, c, d] with n = a · b keeps every trailing coordinate and
  sends the leading pair (p, q) to the single coordinate p · b + q; the reshape back reads the same position. A
  [1, 1, a, b] array reshaped to [a, b] drops its two unit axes. Each is read at an index given by its coordinates,
  in any element type.
-/
import Idealize.ShloMosaic.Lib.Pipeline.Value
import Idealize.ShloMosaic.Lib.ValueIdx

namespace Idealize.ShloMosaic.HeadReshape

open Idealize.ShloMosaic Idealize.ShloMosaic.ValueIdx

variable {α : Type}

/-- `[a, b, c, d]` cast to `[n, c, d]` reads, at `(g, i, j)` with `g = p · b + q`, the operand at `(p, q, i, j)`. -/
theorem shapeCast_abcd_ncd_apply {a b n c d : ℕ} (x : (⟨4, ![a, b, c, d]⟩ : Shape).Idx → α)
    (h : (⟨4, ![a, b, c, d]⟩ : Shape).ShapeCasts ⟨3, ![n, c, d]⟩) (p : Fin a) (q : Fin b) (g : Fin n)
    (hg : g.val = p.val * b + q.val) (i : Fin c) (j : Fin d) :
    shapeCast ⟨3, ![n, c, d]⟩ x h (ix3 g i j) = x (ix4 p q i j) :=
  shapeCast_apply x h _ _ (by
    rw [Shape.rowMajor_val_four, Shape.rowMajor_val_three]
    show ((p.val * b + q.val) * c + i.val) * d + j.val = (g.val * c + i.val) * d + j.val
    rw [hg])

/-- `[n, c, d]` cast to `[a, b, c, d]` reads, at `(p, q, i, j)`, the operand at `(g, i, j)` with `g = p · b + q`. -/
theorem shapeCast_ncd_abcd_apply {a b n c d : ℕ} (x : (⟨3, ![n, c, d]⟩ : Shape).Idx → α)
    (h : (⟨3, ![n, c, d]⟩ : Shape).ShapeCasts ⟨4, ![a, b, c, d]⟩) (p : Fin a) (q : Fin b) (g : Fin n)
    (hg : g.val = p.val * b + q.val) (i : Fin c) (j : Fin d) :
    shapeCast ⟨4, ![a, b, c, d]⟩ x h (ix4 p q i j) = x (ix3 g i j) :=
  shapeCast_apply x h _ _ (by
    rw [Shape.rowMajor_val_four, Shape.rowMajor_val_three]
    show (g.val * c + i.val) * d + j.val = ((p.val * b + q.val) * c + i.val) * d + j.val
    rw [hg])

/-- `[1, 1, a, b]` cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Idealize.ShloMosaic.HeadReshape
-- ==== Proof.IdealHost.lean ====
/-
  The host's reshapes around the kernel's region, read at coordinates.

  Before the region each of the three [4, 16, 2048, 64] arguments is reshaped to [64, 2048, 64]: the batch and head
  coordinates (b, h) become the single leading coordinate b · 16 + h and the two trailing coordinates are kept.
  After the region the [64, 2048, 64] result is reshaped back, and position (b, h, r, e) of the result reads
  position (b · 16 + h, r, e) of what the region wrote.
-/
import proofs.«151636_j51659866636816_2_alg».proof.Proof.Gen.KernelIdeal.Frame
import proofs.«151636_j51659866636816_2_alg».proof.Proof.LibHeadReshape
import Idealize.ShloMosaic.Lib.StableHlo.Run

noncomputable section

namespace Cert.KernelIdeal.Host

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ)

/-- Before the region, array `main_v0` is argument 0 with its two leading axes flattened into one. -/
theorem V_main_v0_eq (c : Dev nD) :
    (Gen.V m c main_v0 : S64x2048x64.Idx → EReal)
      = shapeCast S64x2048x64 (m ((c : Thread nD τ).loc main_arg0) : S4x16x2048x64.Idx → EReal)
          shapeCasts_S4x16x2048x64_S64x2048x64 := by
  show StableHlo.after hostOps0 (fun b => m (c, b)) (Proc.devRef .tc main_v0) = _
  after_results
  rfl

/-- Read at coordinates: position `(g, r, e)` with `g = b · 16 + h` holds argument 0 at `(b, h, r, e)`. -/
theorem V_main_v0_apply (c : Dev nD) (b : Fin 4) (h : Fin 16) (g : Fin 64) (hg : g.val = b.val * 16 + h.val)
    (r : Fin 2048) (e : Fin 64) :
    (Gen.V m c main_v0 : S64x2048x64.Idx → EReal) (ix3 g r e)
      = (m ((c : Thread nD τ).loc main_arg0) : S4x16x2048x64.Idx → EReal) (ix4 b h r e) := by
  rw [V_main_v0_eq]
  exact HeadReshape.shapeCast_abcd_ncd_apply _ _ b h g hg r e

/-- Before the region, array `main_v1` is argument 1 with its two leading axes flattened into one. -/
theorem V_main_v1_eq (c : Dev nD) :
    (Gen.V m c main_v1 : S64x2048x64.Idx → EReal)
      = shapeCast S64x2048x64 (m ((c : Thread nD τ).loc main_arg1) : S4x16x2048x64.Idx → EReal)
          shapeCasts_S4x16x2048x64_S64x2048x64 := by
  show StableHlo.after hostOps0 (fun b => m (c, b)) (Proc.devRef .tc main_v1) = _
  after_results
  rfl

/-- Read at coordinates: position `(g, r, e)` with `g = b · 16 + h` holds argument 1 at `(b, h, r, e)`. -/
theorem V_main_v1_apply (c : Dev nD) (b : Fin 4) (h : Fin 16) (g : Fin 64) (hg : g.val = b.val * 16 + h.val)
    (r : Fin 2048) (e : Fin 64) :
    (Gen.V m c main_v1 : S64x2048x64.Idx → EReal) (ix3 g r e)
      = (m ((c : Thread nD τ).loc main_arg1) : S4x16x2048x64.Idx → EReal) (ix4 b h r e) := by
  rw [V_main_v1_eq]
  exact HeadReshape.shapeCast_abcd_ncd_apply _ _ b h g hg r e

/-- Before the region, array `main_v2` is argument 2 with its two leading axes flattened into one. -/
theorem V_main_v2_eq (c : Dev nD) :
    (Gen.V m c main_v2 : S64x2048x64.Idx → EReal)
      = shapeCast S64x2048x64 (m ((c : Thread nD τ).loc main_arg2) : S4x16x2048x64.Idx → EReal)
          shapeCasts_S4x16x2048x64_S64x2048x64 := by
  show StableHlo.after hostOps0 (fun b => m (c, b)) (Proc.devRef .tc main_v2) = _
  after_results
  rfl

/-- Read at coordinates: position `(g, r, e)` with `g = b · 16 + h` holds argument 2 at `(b, h, r, e)`. -/
theorem V_main_v2_apply (c : Dev nD) (b : Fin 4) (h : Fin 16) (g : Fin 64) (hg : g.val = b.val * 16 + h.val)
    (r : Fin 2048) (e : Fin 64) :
    (Gen.V m c main_v2 : S64x2048x64.Idx → EReal) (ix3 g r e)
      = (m ((c : Thread nD τ).loc main_arg2) : S4x16x2048x64.Idx → EReal) (ix4 b h r e) := by
  rw [V_main_v2_eq]
  exact HeadReshape.shapeCast_abcd_ncd_apply _ _ b h g hg r e

/-- The reshape after the region: position `(b, h, r, e)` of the [4, 16, 2048, 64] result reads position
    `(g, r, e)` with `g = b · 16 + h` of the [64, 2048, 64] array it is a reshape of. -/
theorem shapeCast_back_apply (X : S64x2048x64.Idx → EReal) (b : Fin 4) (h : Fin 16) (g : Fin 64)
    (hg : g.val = b.val * 16 + h.val) (r : Fin 2048) (e : Fin 64) :
    (shapeCast S4x16x2048x64 X shapeCasts_S64x2048x64_S4x16x2048x64) (ix4 b h r e) = X (ix3 g r e) :=
  HeadReshape.shapeCast_ncd_abcd_apply X shapeCasts_S64x2048x64_S4x16x2048x64 b h g hg r e

end Cert.KernelIdeal.Host

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.Spec.lean ====
/-
  Causal attention with a second-order Taylor weight, as two arrangements of one function.

  For a batch b, a head h, a query row q and a key row k, the score is the scaled inner product of row q of Q with
  row k of K, the weight of the pair is 1 + s + (1/2) s² when k ≤ q and 0 otherwise, and the result at (b, h, q, d)
  is the weighted sum of column d of V divided by the sum of the weights plus a small constant.

  `outR` is the arrangement that forms every score first, scales it, masks, and sums over all 2048 key rows at once.
  `tileOut` is the arrangement by tiles of 1024 rows: the query row is scaled before the inner product, the 2048 key
  rows are met tile by tile, a tile strictly below the diagonal is not masked, the diagonal tile is masked by the
  positions inside the tile, and a tile above the diagonal is never met.  The constants 1, 1/2, 0, the small constant
  and the scale are parameters here, so that the same float words can stand on both sides without being evaluated.
-/
import Idealize.ShloMosaic.PureOps.Ideal
import Idealize.ShloMosaic.Lib.ValueIdx
import proofs.«151636_j51659866636816_2_alg».proof.Proof.LibChunkSum

noncomputable section

namespace Cert.TaylorAttn

open Idealize.ShloMosaic Idealize.ShloMosaic.ValueIdx

/-- A [4, 16, 2048, 64] array of extended reals. -/
abbrev Arr : Type := (⟨4, ![4, 16, 2048, 64]⟩ : Shape).Idx → EReal

/-- Row `p` of tile `c` among the 2048 rows: `c * 1024 + p`. -/
abbrev row (c : Fin 2) (p : Fin 1024) : Fin 2048 := ChunkSum.at_ (n := 2) (m := 1024) (N := 2048) rfl c p

/-- The weight of a score: `(1 + s) + (1/2) (s s)`, in the order both programs add it up. -/
def weight (one half s : EReal) : EReal := (one + s) + half * (s * s)

/-! ## All key rows at once -/

/-- The score of query row `q` against key row `k`: the inner product, then the scale. -/
def scoreR (cR : EReal) (Q K : Arr) (b : Fin 4) (h : Fin 16) (q k : Fin 2048) : EReal :=
  (∑ e : Fin 64, Q (ix4 b h q e) * K (ix4 b h k e)) * cR

/-- The masked weight: zero for a key row after the query row. -/
def wR (one half zero cR : EReal) (Q K : Arr) (b : Fin 4) (h : Fin 16) (q k : Fin 2048) : EReal :=
  if k.val ≤ q.val then weight one half (scoreR cR Q K b h q k) else zero

/-- The result: the weighted sum of V's column over the sum of the weights plus the small constant. -/
def outR (one half zero eps cR : EReal) (Q K V : Arr) : Arr := fun i =>
  Ideal.div (∑ k : Fin 2048, wR one half zero cR Q K (i 0) (i 1) (i 2) k * V (ix4 (i 0) (i 1) k (i 3)))
    ((zero + ∑ k : Fin 2048, wR one half zero cR Q K (i 0) (i 1) (i 2) k) + eps)

/-! ## Tile by tile -/

/-- The score with the query row scaled first. -/
def scoreK (cK : EReal) (Q K : Arr) (b : Fin 4) (h : Fin 16) (q k : Fin 2048) : EReal :=
  ∑ e : Fin 64, (Q (ix4 b h q e) * cK) * K (ix4 b h k e)

/-- The weight of a pair, not masked. -/
def wK (one half cK : EReal) (Q K : Arr) (b : Fin 4) (h : Fin 16) (q k : Fin 2048) : EReal :=
  weight one half (scoreK cK Q K b h q k)

/-- The weight inside the diagonal tile `c`: local row `p` against local column `j`, zero above the diagonal. -/
def wD (one half zero cK : EReal) (Q K : Arr) (b : Fin 4) (h : Fin 16) (c : Fin 2) (p j : Fin 1024) : EReal :=
  if j.val ≤ p.val then wK one half cK Q K b h (row c p) (row c j) else zero

/-- The sum of the weights of a row of the first tile: the diagonal tile alone, added onto zero. -/
def den0 (one half zero cK : EReal) (Q K : Arr) (b : Fin 4) (h : Fin 16) (p : Fin 1024) : EReal :=
  zero + ∑ j : Fin 1024, wD one half zero cK Q K b h 0 p j

/-- The weighted sum of V's column `d` for a row of the first tile. -/
def acc0 (one half zero cK : EReal) (Q K V : Arr) (b : Fin 4) (h : Fin 16) (p : Fin 1024) (d : Fin 64) : EReal :=
  zero + ∑ j : Fin 1024, wD one half zero cK Q K b h 0 p j * V (ix4 b h (row 0 j) d)

/-- The sum of the weights of a row of the second tile: the first key tile whole, then the diagonal tile. -/
def den1 (one half zero cK : EReal) (Q K : Arr) (b : Fin 4) (h : Fin 16) (p : Fin 1024) : EReal :=
  (zero + ∑ j : Fin 1024, wK one half cK Q K b h (row 1 p) (row 0 j))
    + ∑ j : Fin 1024, wD one half zero cK Q K b h 1 p j

/-- The weighted sum of V's column `d` for a row of the second tile. -/
def acc1 (one half zero cK : EReal) (Q K V : Arr) (b : Fin 4) (h : Fin 16) (p : Fin 1024) (d : Fin 64) : EReal :=
  (zero + ∑ j : Fin 1024, wK one half cK Q K b h (row 1 p) (row 0 j) * V (ix4 b h (row 0 j) d))
    + ∑ j : Fin 1024, wD one half zero cK Q K b h 1 p j * V (ix4 b h (row 1 j) d)

/-- The result at row `p` of query tile `c`. -/
def tileOut (one half zero eps cK : EReal) (Q K V : Arr) (b : Fin 4) (h : Fin 16) (c : Fin 2) (p : Fin 1024)
    (d : Fin 64) : EReal :=
  if c = 0 then Ideal.div (acc0 one half zero cK Q K V b h p d) (den0 one half zero cK Q K b h p + eps)
  else Ideal.div (acc1 one half zero cK Q K V b h p d) (den1 one half zero cK Q K b h p + eps)

end Cert.TaylorAttn

end
-- ==== Proof.IdealTiles.lean ====
/-
  Which rows of the argument arrays each tile holds.

  The kernel works on the arrays with batch and head flattened: position (b, h) becomes g = 16 b + h.  At the grid point
  at position t the batch·head is g = t / 4; the query window and the output window hold rows [1024 c, 1024 c + 1024)
  of it with c the query tile, and the key and value windows hold the rows of tile min(key tile, query tile).  Here
  these block positions are decided over the 256 points, and a tile read at a local index is identified with the
  argument array read at (b, h, row, column).
-/
import proofs.«151636_j51659866636816_2_alg».proof.Proof.IdealFrame
import proofs.«151636_j51659866636816_2_alg».proof.Proof.IdealHost
import proofs.«151636_j51659866636816_2_alg».proof.Proof.Spec

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.TaylorAttn

variable (m : (ℓ : Loc nD τ sig) → Buf (Elt Ideal) ℓ)

/-- The three argument arrays on core `c`. -/
abbrev Qa (c : Dev nD) : Arr := (m ((c : Thread nD τ).loc main_arg0) : S4x16x2048x64.Idx → EReal)
abbrev Ka (c : Dev nD) : Arr := (m ((c : Thread nD τ).loc main_arg1) : S4x16x2048x64.Idx → EReal)
abbrev Va (c : Dev nD) : Arr := (m ((c : Thread nD τ).loc main_arg2) : S4x16x2048x64.Idx → EReal)

/-! ## Batch and head of a flattened position, tile and local row of a row -/

def bOf (g : Fin 64) : Fin 4 := ⟨g.val / 16, by have := g.isLt; omega⟩
def hOf (g : Fin 64) : Fin 16 := ⟨g.val % 16, Nat.mod_lt _ (by norm_num)⟩
def cOf (r : Fin 2048) : Fin 2 := ⟨r.val / 1024, by have := r.isLt; omega⟩
def pOf (r : Fin 2048) : Fin 1024 := ⟨r.val % 1024, Nat.mod_lt _ (by norm_num)⟩

theorem g_eq (g : Fin 64) : g.val = (bOf g).val * 16 + (hOf g).val := by
  show g.val = g.val / 16 * 16 + g.val % 16; omega
theorem cOf_row (c : Fin 2) (p : Fin 1024) : cOf (row c p) = c := by
  apply Fin.ext; show (c.val * 1024 + p.val) / 1024 = c.val; have := p.isLt; omega
theorem pOf_row (c : Fin 2) (p : Fin 1024) : pOf (row c p) = p := by
  apply Fin.ext; show (c.val * 1024 + p.val) % 1024 = p.val; have := p.isLt; omega
theorem row_cOf_pOf (r : Fin 2048) : row (cOf r) (pOf r) = r := by
  apply Fin.ext; show r.val / 1024 * 1024 + r.val % 1024 = r.val; omega
theorem bOf_mk (b : Fin 4) (h : Fin 16) (g : Fin 64) (hg : g.val = b.val * 16 + h.val) : bOf g = b := by
  apply Fin.ext; show g.val / 16 = b.val; have := h.isLt; omega
theorem hOf_mk (b : Fin 4) (h : Fin 16) (g : Fin 64) (hg : g.val = b.val * 16 + h.val) : hOf g = h := by
  apply Fin.ext; show g.val % 16 = h.val; have := h.isLt; omega

/-- The batch·head of the point at position `t`. -/
def gOf (t : Fin cfg0.N) : Fin 64 := ⟨t.val / 4, by have : t.val < 256 := lt_of_lt_of_eq t.isLt (show cfg0.N = 256 from N_0); omega⟩

/-! ## The block positions, decided over the grid -/

/-- At a point (query tile 0, key tile 1): the output block is tile 0 of its batch·head, and at the point before the
    three input windows held tile 0. -/
theorem blocks_at_1 : ∀ t : Fin cfg0.N, t.val % 4 = 1 →
    win0_3.index t (0 : Fin 3) = t.val / 4 ∧ win0_3.index t (1 : Fin 3) = 0 ∧ win0_3.index t (2 : Fin 3) = 0
    ∧ win0_0.index (prevPt t) (0 : Fin 3) = t.val / 4 ∧ win0_0.index (prevPt t) (1 : Fin 3) = 0 ∧ win0_0.index (prevPt t) (2 : Fin 3) = 0
    ∧ win0_1.index (prevPt t) (0 : Fin 3) = t.val / 4 ∧ win0_1.index (prevPt t) (1 : Fin 3) = 0 ∧ win0_1.index (prevPt t) (2 : Fin 3) = 0
    ∧ win0_2.index (prevPt t) (0 : Fin 3) = t.val / 4 ∧ win0_2.index (prevPt t) (1 : Fin 3) = 0 ∧ win0_2.index (prevPt t) (2 : Fin 3) = 0 :=
  (by decide +kernel : ∀ t : Fin grid0.N, _)

/-- At a point (query tile 1, key tile 1): the output block and all three input windows are tile 1; at the point
    before the query window held tile 1 and the key and value windows tile 0. -/
theorem blocks_at_3 : ∀ t : Fin cfg0.N, t.val % 4 = 3 →
    win0_3.index t (0 : Fin 3) = t.val / 4 ∧ win0_3.index t (1 : Fin 3) = 1 ∧ win0_3.index t (2 : Fin 3) = 0
    ∧ win0_0.index t (0 : Fin 3) = t.val / 4 ∧ win0_0.index t (1 : Fin 3) = 1 ∧ win0_0.index t (2 : Fin 3) = 0
    ∧ win0_1.index t (0 : Fin 3) = t.val / 4 ∧ win0_1.index t (1 : Fin 3) = 1 ∧ win0_1.index t (2 : Fin 3) = 0
    ∧ win0_2.index t (0 : Fin 3) = t.val / 4 ∧ win0_2.index t (1 : Fin 3) = 1 ∧ win0_2.index t (2 : Fin 3) = 0
    ∧ win0_0.index (prevPt t) (0 : Fin 3) = t.val / 4 ∧ win0_0.index (prevPt t) (1 : Fin 3) = 1 ∧ win0_0.index (prevPt t) (2 : Fin 3) = 0
    ∧ win0_1.index (prevPt t) (0 : Fin 3) = t.val / 4 ∧ win0_1.index (prevPt t) (1 : Fin 3) = 0 ∧ win0_1.index (prevPt t) (2 : Fin 3) = 0
    ∧ win0_2.index (prevPt t) (0 : Fin 3) = t.val / 4 ∧ win0_2.index (prevPt t) (1 : Fin 3) = 0 ∧ win0_2.index (prevPt t) (2 : Fin 3) = 0 :=
  (by decide +kernel : ∀ t : Fin grid0.N, _)

/-- Every (batch·head, query tile) is the output block of a point that writes it back. -/
theorem blocks_onto : ∀ (g : Fin 64) (cq : Fin 2), ∃ t : Fin cfg0.N, t.val % 2 = 1 ∧ win0_3.index t = ![g.val, cq.val, 0] :=
  (by decide +kernel : ∀ (g : Fin 64) (cq : Fin 2), ∃ t : Fin grid0.N, t.val % 2 = 1 ∧ win0_3.index t = ![g.val, cq.val, 0])

/-! ## A tile read at a local index -/

/-- The block of window `w` at a point sits at (index 0, 1024 · index 1, 0) of its array. -/
theorem emb_0 (s : Fin cfg0.N) (g : Fin 64) (cq : Fin 2) (h0 : win0_0.index s (0 : Fin 3) = g.val)
    (h1 : win0_0.index s (1 : Fin 3) = cq.val) (h2 : win0_0.index s (2 : Fin 3) = 0) (p : Fin 1024) (e : Fin 64) :
    ((cfg0.win 0).blk s).view.emb (ix3 (0 : Fin 1) p e) = ix3 g (row cq p) e := by
  funext a; apply Fin.ext
  match a with
  | ⟨0, _⟩ => show win0_0.index s (0 : Fin 3) * 1 + 1 * 0 = g.val; omega
  | ⟨1, _⟩ => show win0_0.index s (1 : Fin 3) * 1024 + 1 * p.val = cq.val * 1024 + p.val; omega
  | ⟨2, _⟩ => show win0_0.index s (2 : Fin 3) * 64 + 1 * e.val = e.val; omega
theorem emb_1 (s : Fin cfg0.N) (g : Fin 64) (cq : Fin 2) (h0 : win0_1.index s (0 : Fin 3) = g.val)
    (h1 : win0_1.index s (1 : Fin 3) = cq.val) (h2 : win0_1.index s (2 : Fin 3) = 0) (p : Fin 1024) (e : Fin 64) :
    ((cfg0.win 1).blk s).view.emb (ix3 (0 : Fin 1) p e) = ix3 g (row cq p) e := by
  funext a; apply Fin.ext
  match a with
  | ⟨0, _⟩ => show win0_1.index s (0 : Fin 3) * 1 + 1 * 0 = g.val; omega
  | ⟨1, _⟩ => show win0_1.index s (1 : Fin 3) * 1024 + 1 * p.val = cq.val * 1024 + p.val; omega
  | ⟨2, _⟩ => show win0_1.index s (2 : Fin 3) * 64 + 1 * e.val = e.val; omega
theorem emb_2 (s : Fin cfg0.N) (g : Fin 64) (cq : Fin 2) (h0 : win0_2.index s (0 : Fin 3) = g.val)
    (h1 : win0_2.index s (1 : Fin 3) = cq.val) (h2 : win0_2.index s (2 : Fin 3) = 0) (p : Fin 1024) (e : Fin 64) :
    ((cfg0.win 2).blk s).view.emb (ix3 (0 : Fin 1) p e) = ix3 g (row cq p) e := by
  funext a; apply Fin.ext
  match a with
  | ⟨0, _⟩ => show win0_2.index s (0 : Fin 3) * 1 + 1 * 0 = g.val; omega
  | ⟨1, _⟩ => show win0_2.index s (1 : Fin 3) * 1024 + 1 * p.val = cq.val * 1024 + p.val; omega
  | ⟨2, _⟩ => show win0_2.index s (2 : Fin 3) * 64 + 1 * e.val = e.val; omega
theorem emb_3 (s : Fin cfg0.N) (g : Fin 64) (cq : Fin 2) (h0 : win0_3.index s (0 : Fin 3) = g.val)
    (h1 : win0_3.index s (1 : Fin 3) = cq.val) (h2 : win0_3.index s (2 : Fin 3) = 0) (p : Fin 1024) (e : Fin 64) :
    ((cfg0.win 3).blk s).view.emb (ix3 (0 : Fin 1) p e) = ix3 g (row cq p) e := by
  funext a; apply Fin.ext
  match a with
  | ⟨0, _⟩ => show win0_3.index s (0 : Fin 3) * 1 + 1 * 0 = g.val; omega
  | ⟨1, _⟩ => show win0_3.index s (1 : Fin 3) * 1024 + 1 * p.val = cq.val * 1024 + p.val; omega
  | ⟨2, _⟩ => show win0_3.index s (2 : Fin 3) * 64 + 1 * e.val = e.val; omega

/-- The q tile at a point, at local row `p` and column `e`, is Q at (b, h, 1024 c + p, e). -/
theorem qT_apply (c : Dev nD) (s : Fin cfg0.N) (g : Fin 64) (cq : Fin 2) (h0 : win0_0.index s (0 : Fin 3) = g.val)
    (h1 : win0_0.index s (1 : Fin 3) = cq.val) (h2 : win0_0.index s (2 : Fin 3) = 0) (p : Fin 1024) (e : Fin 64) :
    qT m c s (ix3 (0 : Fin 1) p e) = Qa m c (ix4 (bOf g) (hOf g) (row cq p) e) := by
  show (V m c main_v0 : S64x2048x64.Idx → EReal) (((cfg0.win 0).blk s).view.emb (ix3 (0 : Fin 1) p e)) = _
  rw [emb_0 s g cq h0 h1 h2 p e]
  exact Cert.KernelIdeal.Host.V_main_v0_apply m c (bOf g) (hOf g) g (g_eq g) (row cq p) e
theorem kT_apply (c : Dev nD) (s : Fin cfg0.N) (g : Fin 64) (cq : Fin 2) (h0 : win0_1.index s (0 : Fin 3) = g.val)
    (h1 : win0_1.index s (1 : Fin 3) = cq.val) (h2 : win0_1.index s (2 : Fin 3) = 0) (p : Fin 1024) (e : Fin 64) :
    kT m c s (ix3 (0 : Fin 1) p e) = Ka m c (ix4 (bOf g) (hOf g) (row cq p) e) := by
  show (V m c main_v1 : S64x2048x64.Idx → EReal) (((cfg0.win 1).blk s).view.emb (ix3 (0 : Fin 1) p e)) = _
  rw [emb_1 s g cq h0 h1 h2 p e]
  exact Cert.KernelIdeal.Host.V_main_v1_apply m c (bOf g) (hOf g) g (g_eq g) (row cq p) e
theorem vT_apply (c : Dev nD) (s : Fin cfg0.N) (g : Fin 64) (cq : Fin 2) (h0 : win0_2.index s (0 : Fin 3) = g.val)
    (h1 : win0_2.index s (1 : Fin 3) = cq.val) (h2 : win0_2.index s (2 : Fin 3) = 0) (p : Fin 1024) (e : Fin 64) :
    vT m c s (ix3 (0 : Fin 1) p e) = Va m c (ix4 (bOf g) (hOf g) (row cq p) e) := by
  show (V m c main_v2 : S64x2048x64.Idx → EReal) (((cfg0.win 2).blk s).view.emb (ix3 (0 : Fin 1) p e)) = _
  rw [emb_2 s g cq h0 h1 h2 p e]
  exact Cert.KernelIdeal.Host.V_main_v2_apply m c (bOf g) (hOf g) g (g_eq g) (row cq p) e

end Cert.KernelIdeal.Val

end
-- ==== Proof.IdealPayloads.lean ====
/-
  The arithmetic of one step of the tiled causal attention, read entry by entry at the ideal values.

  One step meets a query tile, a key tile and a value tile, each of 1024 rows of 64 numbers, and two running sums: the
  weighted sum of the value rows (1024 by 64) and the sum of the weights (1024 by 1).  At the ideal values every
  rounding is the identity and every product and sum is the one of the extended reals, so

    * the score of local query row p against local key row j is the sum over e of (q p e * (1/8 word)) * k j e
      (the scaled query tile times the transposed key tile, added onto zeros);
    * the unmasked weight is (1 + s) + (1/2) (s s) of that score, and the masked weight of the diagonal tile is that
      weight where j ≤ p and zero elsewhere (the row number and the column number compared as signed words, both below
      1024);
    * a step adds to the sum of the weights the sum over j of the row's weights, and to the weighted sum the sum over
      j of the weight times the value entry;
    * the result divides the weighted sum by the sum of the weights plus a small constant, and both sums start at zero.

  The float words (1, 1/2, 0, 1/8, the small constant) stay words here: nothing below evaluates them.
-/
import proofs.«151636_j51659866636816_2_alg».proof.Proof.Gen.KernelIdeal.Skeleton
import proofs.«151636_j51659866636816_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.TaylorAttn

/-! ## The score matrix of a query tile against a key tile -/

/-- The matrix of scores: the query tile scaled, times the transposed key tile, added onto zeros. -/
def scoreMat (x0 x1 : Vec Ideal S1x1024x64 .f32) : FVec Ideal S1024x1024 .f32 :=
  matmul dot_S1024x64_S64x1024_S1024x1024_1_0_0_1_n_n none
    (truncf .bf16 (mulf (shapeCast S1024x64 x0 shapeCasts_S1x1024x64_S1024x64)
      (broadcast S1024x64 (Scalar.ofBits (F := Ideal) .f32 0x3E000000#32))) bitsLt_bf16_f32)
    (transpose S64x1024 [1, 0] (truncf .bf16 (shapeCast S1024x64 x1 shapeCasts_S1x1024x64_S1024x64) bitsLt_bf16_f32)
      transposes_S1024x64_p1_0_S64x1024)
    (constant S1024x1024 .f32 0x00000000#32)

/-- The unmasked weights are the second-order Taylor weight of the score matrix, entry by entry. -/
theorem pay3_eq (x0 x1 : Vec Ideal S1x1024x64 .f32) (i : S1024x1024.Idx) :
    k0_pay3 (F := Ideal) x0 x1 i
      = weight (Ideal.ofBits .f32 0x3F800000#32) (Ideal.ofBits .f32 0x3F000000#32) (scoreMat x0 x1 i) := rfl

theorem lhs1_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem lhs1_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs1_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs1_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- An entry of the score matrix: the inner product of the scaled query row with the key row. -/
theorem scoreMat_apply (x0 x1 : Vec Ideal S1x1024x64 .f32) (p j : Fin 1024) :
    scoreMat x0 x1 (ix2 p j)
      = ∑ e : Fin 64, (x0 (ix3 0 p e) * Ideal.ofBits .f32 0x3E000000#32) * x1 (ix3 0 j e) := by
  unfold scoreMat
  refine (Ideal.matmul_constant_zero_apply dot_S1024x64_S64x1024_S1024x1024_1_0_0_1_n_n none _ _ (ix2 p j)).trans ?_
  rw [← Equiv.sum_comp (contrEquiv1 dot_S1024x64_S64x1024_S1024x1024_1_0_0_1_n_n 64 rfl rfl).symm]
  refine Finset.sum_congr rfl fun e _ => ?_
  have hk := contrEquiv1_symm_val dot_S1024x64_S64x1024_S1024x1024_1_0_0_1_n_n 64 rfl rfl e
  have el : dot_S1024x64_S64x1024_S1024x1024_1_0_0_1_n_n.lhsIdx (ix2 p j)
      ((contrEquiv1 dot_S1024x64_S64x1024_S1024x1024_1_0_0_1_n_n 64 rfl rfl).symm e) = ix2 p e :=
    funext fun a => Fin.ext (by
      match a with
      | ⟨0, _⟩ => exact lhs1_0 _ _
      | ⟨1, _⟩ => exact (lhs1_1 _ _).trans hk)
  have er : dot_S1024x64_S64x1024_S1024x1024_1_0_0_1_n_n.rhsIdx (ix2 p j)
      ((contrEquiv1 dot_S1024x64_S64x1024_S1024x1024_1_0_0_1_n_n 64 rfl rfl).symm e) = ix2 e j :=
    funext fun a => Fin.ext (by
      match a with
      | ⟨0, _⟩ => exact (rhs1_0 _ _).trans hk
      | ⟨1, _⟩ => exact rhs1_1 _ _)
  rw [el, er, transpose_ix2_apply]
  show shapeCast S1024x64 x0 shapeCasts_S1x1024x64_S1024x64 (ix2 p e) * Ideal.ofBits .f32 0x3E000000#32
      * shapeCast S1024x64 x1 shapeCasts_S1x1024x64_S1024x64 (ix2 j e) = _
  rw [shapeCast_1ab_ab_apply, shapeCast_1ab_ab_apply]

/-- The unmasked weight of local query row p against local key row j. -/
theorem pay3_apply (x0 x1 : Vec Ideal S1x1024x64 .f32) (p j : Fin 1024) :
    k0_pay3 (F := Ideal) x0 x1 (ix2 p j)
      = weight (Ideal.ofBits .f32 0x3F800000#32) (Ideal.ofBits .f32 0x3F000000#32)
          (∑ e : Fin 64, (x0 (ix3 0 p e) * Ideal.ofBits .f32 0x3E000000#32) * x1 (ix3 0 j e)) := by
  rw [pay3_eq, scoreMat_apply]

/-! ## The mask of the diagonal tile -/

/-- The masked weights select, entry by entry, between the unmasked weight and zero by comparing the row and column
    numbers. -/
theorem pay8_eq (x0 x1 : Vec Ideal S1x1024x64 .f32) (i : S1024x1024.Idx) :
    k0_pay8 (F := Ideal) x0 x1 i
      = Scalar.select (Scalar.cmpi .sge (iota .tc S1024x1024 32 [0] iota_S1024x1024_d0_w32 i)
            (iota .tc S1024x1024 32 [1] iota_S1024x1024_d1_w32 i))
          (k0_pay3 (F := Ideal) x0 x1 i) (Ideal.ofBits .f32 0x00000000#32) := rfl

/-- The masked weight: the unmasked one where the key row is not after the query row, zero elsewhere. -/
theorem pay8_apply (x0 x1 : Vec Ideal S1x1024x64 .f32) (p j : Fin 1024) :
    k0_pay8 (F := Ideal) x0 x1 (ix2 p j)
      = if j.val ≤ p.val then
          weight (Ideal.ofBits .f32 0x3F800000#32) (Ideal.ofBits .f32 0x3F000000#32)
            (∑ e : Fin 64, (x0 (ix3 0 p e) * Ideal.ofBits .f32 0x3E000000#32) * x1 (ix3 0 j e))
        else Ideal.ofBits .f32 0x00000000#32 := by
  rw [pay8_eq, iota_single_apply, iota_single_apply, pay3_apply]
  show Scalar.select (Scalar.cmpi .sge (BitVec.ofNat 32 p.val) (BitVec.ofNat 32 j.val)) _ _ = _
  have hp := p.isLt
  have hj := j.isLt
  by_cases hjp : j.val ≤ p.val
  · have hc : Scalar.cmpi .sge (BitVec.ofNat 32 p.val) (BitVec.ofNat 32 j.val) = 1#1 :=
      Affine.sge_holds (Affine.ofNat p.val ⟨rfl, by omega⟩) (Affine.ofNat j.val ⟨rfl, by omega⟩) (by omega)
    rw [if_pos hjp, hc, select_one]
  · have hc : ¬ Scalar.cmpi .sge (BitVec.ofNat 32 p.val) (BitVec.ofNat 32 j.val) = 1#1 :=
      Affine.sge_fails (Affine.ofNat p.val ⟨rfl, by omega⟩) (Affine.ofNat j.val ⟨rfl, by omega⟩) (by omega)
    rw [if_neg hjp, eq_zero_of_ne_one hc, select_zero]

/-! ## The sum of the weights of a row -/

/-- The sum over the lanes of a [1024, 1024] matrix, kept as a column: at row p, the sum of the row's entries. -/
theorem laneSum_apply (M : FVec Ideal S1024x1024 .f32) (p : Fin 1024) (u : Fin 1) :
    shapeCast S1024x1 (multiReduction .add [1] S1024 M 0x00000000#32 reduces_S1024x1024_S1024 (.inl rfl) rfl)
        shapeCasts_S1024_S1024x1 (ix2 p u)
      = ∑ j : Fin 1024, M (ix2 p j) := by
  refine (shapeCast_apply _ shapeCasts_S1024_S1024x1 (ix2 p u) (ix1 p) ?_).trans ?_
  · rw [Shape.rowMajor_val_one, Shape.rowMajor_val_two]
    show p.val = p.val * 1 + u.val
    omega
  · refine (Ideal.multiReduction_add_single M 0x00000000#32 reduces_S1024x1024_S1024 (.inl rfl) rfl (ix1 p)).trans ?_
    show ∑ j : Fin 1024, M (reduces_S1024x1024_S1024.lift (ix1 p) j) = _
    refine Finset.sum_congr rfl fun j _ => congrArg M (funext fun a => Fin.ext ?_)
    match a with
    | ⟨0, _⟩ => rfl
    | ⟨1, _⟩ => rfl

/-- The running sum of the weights after a tile below the diagonal. -/
theorem pay4_apply (x0 x1 : Vec Ideal S1x1024x64 .f32) (den : Vec Ideal S1024x1 .f32) (p : Fin 1024) :
    k0_pay4 (F := Ideal) x0 x1 den (ix2 p 0)
      = den (ix2 p 0) + ∑ j : Fin 1024, k0_pay3 (F := Ideal) x0 x1 (ix2 p j) := by
  unfold k0_pay4
  rw [shapeCast_self]
  exact congrArg (den (ix2 p 0) + ·) (laneSum_apply (k0_pay3 (F := Ideal) x0 x1) p 0)

/-- The running sum of the weights after the diagonal tile. -/
theorem pay9_apply (x0 x1 : Vec Ideal S1x1024x64 .f32) (den : Vec Ideal S1024x1 .f32) (p : Fin 1024) :
    k0_pay9 (F := Ideal) x0 x1 den (ix2 p 0)
      = den (ix2 p 0) + ∑ j : Fin 1024, k0_pay8 (F := Ideal) x0 x1 (ix2 p j) := by
  unfold k0_pay9
  rw [shapeCast_self]
  exact congrArg (den (ix2 p 0) + ·) (laneSum_apply (k0_pay8 (F := Ideal) x0 x1) p 0)

/-! ## The weighted sum of the value tile -/

/-- A matrix of weights times the value tile, added onto zeros. -/
def wv (W : FVec Ideal S1024x1024 .f32) (x2 : Vec Ideal S1x1024x64 .f32) : FVec Ideal S1024x64 .f32 :=
  matmul dot_S1024x1024_S1024x64_S1024x64_1_0_0_1_n_n none
    (truncf .bf16 W bitsLt_bf16_f32)
    (truncf .bf16 (shapeCast S1024x64 x2 shapeCasts_S1x1024x64_S1024x64) bitsLt_bf16_f32)
    (constant S1024x64 .f32 0x00000000#32)

theorem lhs2_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhs2_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs2_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs2_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- An entry of the product: the sum over the key rows of the weight times the value entry. -/
theorem wv_apply (W : FVec Ideal S1024x1024 .f32) (x2 : Vec Ideal S1x1024x64 .f32) (p : Fin 1024) (d : Fin 64) :
    wv W x2 (ix2 p d) = ∑ j : Fin 1024, W (ix2 p j) * x2 (ix3 0 j d) := by
  unfold wv
  refine (Ideal.matmul_constant_zero_apply dot_S1024x1024_S1024x64_S1024x64_1_0_0_1_n_n none _ _ (ix2 p d)).trans ?_
  rw [← Equiv.sum_comp (contrEquiv1 dot_S1024x1024_S1024x64_S1024x64_1_0_0_1_n_n 1024 rfl rfl).symm]
  refine Finset.sum_congr rfl fun j _ => ?_
  have hk := contrEquiv1_symm_val dot_S1024x1024_S1024x64_S1024x64_1_0_0_1_n_n 1024 rfl rfl j
  have el : dot_S1024x1024_S1024x64_S1024x64_1_0_0_1_n_n.lhsIdx (ix2 p d)
      ((contrEquiv1 dot_S1024x1024_S1024x64_S1024x64_1_0_0_1_n_n 1024 rfl rfl).symm j) = ix2 p j :=
    funext fun a => Fin.ext (by
      match a with
      | ⟨0, _⟩ => exact lhs2_0 _ _
      | ⟨1, _⟩ => exact (lhs2_1 _ _).trans hk)
  have er : dot_S1024x1024_S1024x64_S1024x64_1_0_0_1_n_n.rhsIdx (ix2 p d)
      ((contrEquiv1 dot_S1024x1024_S1024x64_S1024x64_1_0_0_1_n_n 1024 rfl rfl).symm j) = ix2 j d :=
    funext fun a => Fin.ext (by
      match a with
      | ⟨0, _⟩ => exact (rhs2_0 _ _).trans hk
      | ⟨1, _⟩ => exact rhs2_1 _ _)
  rw [el, er]
  show W (ix2 p j) * shapeCast S1024x64 x2 shapeCasts_S1x1024x64_S1024x64 (ix2 j d) = _
  rw [shapeCast_1ab_ab_apply]

theorem pay5_eq (x0 x1 x2 : Vec Ideal S1x1024x64 .f32) (acc : Vec Ideal S1024x64 .f32) :
    k0_pay5 (F := Ideal) x0 x1 x2 acc
      = shapeCast S1024x64 (addf acc (wv (k0_pay3 (F := Ideal) x0 x1) x2)) shapeCasts_S1024x64_S1024x64 := rfl

/-- The running weighted sum after a tile below the diagonal. -/
theorem pay5_apply (x0 x1 x2 : Vec Ideal S1x1024x64 .f32) (acc : Vec Ideal S1024x64 .f32) (p : Fin 1024) (d : Fin 64) :
    k0_pay5 (F := Ideal) x0 x1 x2 acc (ix2 p d)
      = acc (ix2 p d) + ∑ j : Fin 1024, k0_pay3 (F := Ideal) x0 x1 (ix2 p j) * x2 (ix3 0 j d) := by
  rw [pay5_eq, shapeCast_self]
  exact congrArg (acc (ix2 p d) + ·) (wv_apply (k0_pay3 (F := Ideal) x0 x1) x2 p d)

theorem pay10_eq (x0 x1 x2 : Vec Ideal S1x1024x64 .f32) (acc : Vec Ideal S1024x64 .f32) :
    k0_pay10 (F := Ideal) x0 x1 x2 acc = addf acc (wv (k0_pay8 (F := Ideal) x0 x1) x2) := rfl

/-- The running weighted sum after the diagonal tile. -/
theorem pay10_apply (x0 x1 x2 : Vec Ideal S1x1024x64 .f32) (acc : Vec Ideal S1024x64 .f32) (p : Fin 1024) (d : Fin 64) :
    k0_pay10 (F := Ideal) x0 x1 x2 acc (ix2 p d)
      = acc (ix2 p d) + ∑ j : Fin 1024, k0_pay8 (F := Ideal) x0 x1 (ix2 p j) * x2 (ix3 0 j d) := by
  rw [pay10_eq]
  exact congrArg (acc (ix2 p d) + ·) (wv_apply (k0_pay8 (F := Ideal) x0 x1) x2 p d)

/-- The value stored back after the diagonal tile is the value itself. -/
theorem pay6_eq (v : FVec Ideal S1024x64 .f32) : k0_pay6 (F := Ideal) v = v := by
  unfold k0_pay6
  exact shapeCast_self v shapeCasts_S1024x64_S1024x64

/-! ## The quotient -/

/-- The result: the weighted sum over the sum of the weights plus the small constant. -/
theorem pay7_apply (acc : Vec Ideal S1024x64 .f32) (den : Vec Ideal S1024x1 .f32) (p : Fin 1024) (d : Fin 64) :
    k0_pay7 (F := Ideal) acc den (ix3 0 p d)
      = Ideal.div (acc (ix2 p d)) (den (ix2 p 0) + Ideal.ofBits .f32 0x358637BD#32) := by
  unfold k0_pay7
  refine (shapeCast_ab_1ab_apply _ shapeCasts_S1024x64_S1x1024x64 0 p d).trans ?_
  refine congrArg (Ideal.div (acc (ix2 p d))) ?_
  refine (broadcastTo_apply _ broadcasts_S1024x1_S1024x64 (ix2 p d) (ix2 p 0) fun a => ?_).trans rfl
  match a with
  | ⟨0, _⟩ => rfl
  | ⟨1, _⟩ => rfl

/-! ## The zeros the two running sums start from -/

/-- The weighted sum starts from zero. -/
theorem pay1_apply (p : Fin 1024) (d : Fin 64) :
    k0_pay1 (F := Ideal) (ix2 p d) = Ideal.ofBits .f32 0x00000000#32 := by
  unfold k0_pay1
  rw [shapeCast_self]
  rfl

/-- The sum of the weights starts from zero. -/
theorem pay2_apply (p : Fin 1024) :
    k0_pay2 (F := Ideal) (ix2 p 0) = Ideal.ofBits .f32 0x00000000#32 := by
  unfold k0_pay2
  rw [shapeCast_self]
  rfl

end Cert.KernelIdeal.Pay

end
-- ==== Proof.IdealValue.lean ====
/-
  What the kernel leaves in its result array, as the tile-by-tile attention formula of the argument arrays.

  Only the points whose key tile is the last write the output block back.  At such a point the block holds the quotient
  of the two accumulators, and the accumulators hold: for query tile 0 the diagonal tile's sums over zero; for query
  tile 1 the sums of the unmasked tile 0 over zero, plus the diagonal tile's.  Read index by index with the tiles
  identified with rows of Q, K, V, that is exactly the tile-by-tile formula at (b, h, 1024 c + p, d).  The blocks written
  back cover the whole result array, so the array ends as that formula everywhere.
-/
import proofs.«151636_j51659866636816_2_alg».proof.Proof.IdealTiles
import proofs.«151636_j51659866636816_2_alg».proof.Proof.IdealPayloads

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.TaylorAttn
open Cert.KernelIdeal.Pay

local notation "ONE" => Ideal.ofBits FTy.f32 0x3F800000#32
local notation "HALF" => Ideal.ofBits FTy.f32 0x3F000000#32
local notation "ZERO" => Ideal.ofBits FTy.f32 0x00000000#32
local notation "EPS" => Ideal.ofBits FTy.f32 0x358637BD#32
local notation "C8" => Ideal.ofBits FTy.f32 0x3E000000#32

variable (m : (ℓ : Loc nD τ sig) → Buf (Elt Ideal) ℓ) (ρ : Dev nD → PrngReg)

/-- The tile-by-tile formula on the flattened array: at (g, r, d) the formula at batch g / 16, head g % 16, query tile
    r / 1024, local row r % 1024. -/
def Gout (Q K V : Arr) : S64x2048x64.Idx → EReal := fun i =>
  tileOut ONE HALF ZERO EPS C8 Q K V (bOf (i 0)) (hOf (i 0)) (cOf (i 1)) (pOf (i 1)) (i 2)

theorem Gout_apply (Q K V : Arr) (g : Fin 64) (cq : Fin 2) (p : Fin 1024) (d : Fin 64) :
    Gout Q K V (ix3 g (row cq p) d) = tileOut ONE HALF ZERO EPS C8 Q K V (bOf g) (hOf g) cq p d := by
  show tileOut ONE HALF ZERO EPS C8 Q K V (bOf g) (hOf g) (cOf (row cq p)) (pOf (row cq p)) d = _
  rw [cOf_row, pOf_row]

/-! ## The accumulators after the points that matter -/

theorem accAt_1 (c : Dev nD) (t : Fin cfg0.N) (h : t.val % 4 = 1) : accAt m c t = accDiag m c (prevPt t) := by
  unfold accAt; rw [if_neg (by omega), if_pos h]
theorem denAt_1 (c : Dev nD) (t : Fin cfg0.N) (h : t.val % 4 = 1) : denAt m c t = denDiag m c (prevPt t) := by
  unfold denAt; rw [if_neg (by omega), if_pos h]
theorem accAt_3 (c : Dev nD) (t : Fin cfg0.N) (h : t.val % 4 = 3) :
    accAt m c t = k0_pay6 (k0_pay10 (qT m c t) (kT m c t) (vT m c t) (accBelow m c (prevPt t))) := by
  unfold accAt; rw [if_neg (by omega), if_neg (by omega), if_neg (by omega)]
theorem denAt_3 (c : Dev nD) (t : Fin cfg0.N) (h : t.val % 4 = 3) :
    denAt m c t = k0_pay9 (qT m c t) (kT m c t) (denBelow m c (prevPt t)) := by
  unfold denAt; rw [if_neg (by omega), if_neg (by omega), if_neg (by omega)]

/-- The masked weight of the diagonal tile, from the q and k tiles at a point that hold tile `cq`. -/
theorem pay8_tiles (c : Dev nD) (s : Fin cfg0.N) (g : Fin 64) (cq : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = cq.val) (k2 : win0_1.index s (2 : Fin 3) = 0)
    (p j : Fin 1024) :
    k0_pay8 (F := Ideal) (qT m c s) (kT m c s) (ix2 p j) = wD ONE HALF ZERO C8 (Qa m c) (Ka m c) (bOf g) (hOf g) cq p j := by
  rw [pay8_apply]
  unfold wD wK scoreK
  simp only [qT_apply m c s g cq q0 q1 q2, kT_apply m c s g cq k0 k1 k2]

/-- The unmasked weight, from a q tile holding tile `cq` and a k tile holding tile `ck`. -/
theorem pay3_tiles (c : Dev nD) (s : Fin cfg0.N) (g : Fin 64) (cq ck : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = ck.val) (k2 : win0_1.index s (2 : Fin 3) = 0)
    (p j : Fin 1024) :
    k0_pay3 (F := Ideal) (qT m c s) (kT m c s) (ix2 p j) = wK ONE HALF C8 (Qa m c) (Ka m c) (bOf g) (hOf g) (row cq p) (row ck j) := by
  rw [pay3_apply]
  unfold wK scoreK
  simp only [qT_apply m c s g cq q0 q1 q2, kT_apply m c s g ck k0 k1 k2]

/-- The diagonal tile `cq` added onto weighted sums `acc`. -/
theorem addDiag_acc (c : Dev nD) (s : Fin cfg0.N) (g : Fin 64) (cq : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = cq.val) (k2 : win0_1.index s (2 : Fin 3) = 0)
    (v0 : win0_2.index s (0 : Fin 3) = g.val) (v1 : win0_2.index s (1 : Fin 3) = cq.val) (v2 : win0_2.index s (2 : Fin 3) = 0)
    (acc : Vec Ideal S1024x64 .f32) (p : Fin 1024) (d : Fin 64) :
    k0_pay6 (F := Ideal) (k0_pay10 (qT m c s) (kT m c s) (vT m c s) acc) (ix2 p d)
      = acc (ix2 p d) + ∑ j : Fin 1024, wD ONE HALF ZERO C8 (Qa m c) (Ka m c) (bOf g) (hOf g) cq p j * Va m c (ix4 (bOf g) (hOf g) (row cq j) d) := by
  rw [pay6_eq, pay10_apply]
  simp only [pay8_tiles m c s g cq q0 q1 q2 k0 k1 k2, vT_apply m c s g cq v0 v1 v2]

/-- The diagonal tile `cq` added onto weight sums `den`. -/
theorem addDiag_den (c : Dev nD) (s : Fin cfg0.N) (g : Fin 64) (cq : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = cq.val) (k2 : win0_1.index s (2 : Fin 3) = 0)
    (den : Vec Ideal S1024x1 .f32) (p : Fin 1024) :
    k0_pay9 (F := Ideal) (qT m c s) (kT m c s) den (ix2 p (0 : Fin 1))
      = den (ix2 p (0 : Fin 1)) + ∑ j : Fin 1024, wD ONE HALF ZERO C8 (Qa m c) (Ka m c) (bOf g) (hOf g) cq p j := by
  rw [pay9_apply]
  simp only [pay8_tiles m c s g cq q0 q1 q2 k0 k1 k2]

/-- The unmasked tile (query tile `cq`, key tile `ck`) added onto cleared weighted sums. -/
theorem below_acc (c : Dev nD) (s : Fin cfg0.N) (g : Fin 64) (cq ck : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = ck.val) (k2 : win0_1.index s (2 : Fin 3) = 0)
    (v0 : win0_2.index s (0 : Fin 3) = g.val) (v1 : win0_2.index s (1 : Fin 3) = ck.val) (v2 : win0_2.index s (2 : Fin 3) = 0)
    (p : Fin 1024) (d : Fin 64) :
    accBelow m c s (ix2 p d)
      = ZERO + ∑ j : Fin 1024, wK ONE HALF C8 (Qa m c) (Ka m c) (bOf g) (hOf g) (row cq p) (row ck j) * Va m c (ix4 (bOf g) (hOf g) (row ck j) d) := by
  unfold accBelow
  rw [pay5_apply, pay1_apply]
  simp only [pay3_tiles m c s g cq ck q0 q1 q2 k0 k1 k2, vT_apply m c s g ck v0 v1 v2]

/-- The unmasked tile added onto cleared weight sums. -/
theorem below_den (c : Dev nD) (s : Fin cfg0.N) (g : Fin 64) (cq ck : Fin 2)
    (q0 : win0_0.index s (0 : Fin 3) = g.val) (q1 : win0_0.index s (1 : Fin 3) = cq.val) (q2 : win0_0.index s (2 : Fin 3) = 0)
    (k0 : win0_1.index s (0 : Fin 3) = g.val) (k1 : win0_1.index s (1 : Fin 3) = ck.val) (k2 : win0_1.index s (2 : Fin 3) = 0)
    (p : Fin 1024) :
    denBelow m c s (ix2 p (0 : Fin 1))
      = ZERO + ∑ j : Fin 1024, wK ONE HALF C8 (Qa m c) (Ka m c) (bOf g) (hOf g) (row cq p) (row ck j) := by
  unfold denBelow
  rw [pay4_apply, pay2_apply]
  simp only [pay3_tiles m c s g cq ck q0 q1 q2 k0 k1 k2]

/-! ## What a point writes back -/

/-- At a point that writes back, the stored block is the tile-by-tile formula read through the block. -/
theorem out_eq (c : Dev nD) (t : Fin cfg0.N) (ht : t.val % 2 = 1) (y : S1x1024x64.Idx) :
    outAt m c t y = Gout (Qa m c) (Ka m c) (Va m c) (((cfg0.win 3).blk t).view.emb y) := by
  obtain ⟨u, p, d, rfl⟩ : ∃ (u : Fin 1) (p : Fin 1024) (d : Fin 64), y = ix3 u p d := ⟨y 0, y 1, y 2, eq_ix3 y⟩
  obtain rfl : u = 0 := Subsingleton.elim _ _
  have hg : ∀ x : ℕ, x = t.val / 4 → x = (gOf t).val := fun x hx => hx
  rcases (by omega : t.val % 4 = 1 ∨ t.val % 4 = 3) with h | h
  · obtain ⟨a0, a1, a2, q0, q1, q2, k0, k1, k2, v0, v1, v2⟩ := blocks_at_1 t h
    rw [emb_3 t (gOf t) 0 a0 a1 a2 p d, Gout_apply]
    unfold outAt
    rw [pay7_apply, accAt_1 m c t h, denAt_1 m c t h]
    unfold accDiag denDiag
    rw [addDiag_acc m c (prevPt t) (gOf t) 0 q0 q1 q2 k0 k1 k2 v0 v1 v2, addDiag_den m c (prevPt t) (gOf t) 0 q0 q1 q2 k0 k1 k2,
      pay1_apply, pay2_apply]
    unfold tileOut acc0 den0
    rw [if_pos rfl]
  · obtain ⟨a0, a1, a2, q0, q1, q2, k0, k1, k2, v0, v1, v2, r0, r1, r2, s0, s1, s2, w0, w1, w2⟩ := blocks_at_3 t h
    rw [emb_3 t (gOf t) 1 a0 a1 a2 p d, Gout_apply]
    unfold outAt
    rw [pay7_apply, accAt_3 m c t h, denAt_3 m c t h]
    rw [addDiag_acc m c t (gOf t) 1 q0 q1 q2 k0 k1 k2 v0 v1 v2, addDiag_den m c t (gOf t) 1 q0 q1 q2 k0 k1 k2,
      below_acc m c (prevPt t) (gOf t) 1 0 r0 r1 r2 s0 s1 s2 w0 w1 w2, below_den m c (prevPt t) (gOf t) 1 0 r0 r1 r2 s0 s1 s2]
    unfold tileOut acc1 den1
    rw [if_neg (by decide)]

theorem flushed_eq (c : Dev nD) (t : Fin cfg0.N) (hf : (cfg0.win 3).flush t = true) :
    (dats m 0 c).flushed 3 t = ((cfg0.win 3).blk t).view.read (Elt Ideal) (Gout (Qa m c) (Ka m c) (Va m c)) := by
  show (cfg0.win 3).cut (grid0.coords t) ((dats m 0 c).after 3 t) = _
  rw [after_3]
  funext y
  exact out_eq m c t ((flush0_3 t).mp hf) y

/-! ## The blocks written back cover the array -/

theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

theorem cover (i : S64x2048x64.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht, hx⟩ := blocks_onto ⟨(i 0).val, hi0⟩ ⟨(i 1).val / 1024, by omega⟩
  have x0 : win0_3.index t (0 : Fin 3) = (i 0).val := congrFun hx 0
  have x1 : win0_3.index t (1 : Fin 3) = (i 1).val / 1024 := congrFun hx 1
  have x2 : win0_3.index t (2 : Fin 3) = 0 := congrFun hx 2
  refine ⟨t, (flush0_3 t).mpr ht, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The flattened result array after the run: the tile-by-tile formula everywhere. -/
theorem final (c : Dev nD) : (dats m 0 c).arrAt 3 cfg0.N = Gout (Qa m c) (Ka m c) (Va m c) :=
  (dats m 0 c).arrAt_eq_of_cover 3 (Gout (Qa m c) (Ka m c) (Va m c)) (fun t hf => flushed_eq m c t hf) cover

end Cert.KernelIdeal.Val

end
-- ==== Proof.IdealResult.lean ====
/-
  The kernel's run with its result named: the result array ends as the tile-by-tile formula, reshaped back to
  [4, 16, 2048, 64], and the three argument arrays end unchanged.
-/
import proofs.«151636_j51659866636816_2_alg».proof.Proof.IdealValue
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.TaylorAttn

variable (m : (ℓ : Loc nD τ sig) → Buf (Elt Ideal) ℓ) (ρ : Dev nD → PrngReg)

/-- The result array: the flattened formula with batch and head unflattened. -/
def Res (Q K V : Arr) : S4x16x2048x64.Idx → EReal :=
  shapeCast S4x16x2048x64 (Gout Q K V) shapeCasts_S64x2048x64_S4x16x2048x64

/-- The one host line after the region reshapes the flattened result. -/
theorem tail_eq (c : Dev nD) :
    Pipeline.afterTail₀ cfgs (dats m) 0 (V0 m) [hostOps1] c main_v4 = Res (Qa m c) (Ka m c) (Va m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Gout (Qa m c) (Ka m c) (Va m c) :=
    (Pipeline.withArrays_arr spec0 launch0.win.arr_inj c _ _ 3).trans (final m c)
  rw [e]
  rfl

/-- Every weakly fair execution of the kernel's program terminates with the result array at `Res` of the argument
    arrays and the argument arrays unchanged. -/
theorem run : θ_run defs (onTc (τ := τ) (main (F := Ideal))) ⟨m, fun _ => 0, ρ⟩ (fun r => ∀ c : Dev nD,
      r.2.mem ((c.tc : Thread nD τ).loc main_v4) = Res (Qa m c) (Ka m c) (Va m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.RefSide.lean ====
/-
  The reference program, read one element at a time, is the all-rows-at-once arrangement of the specification.

  The scale is one over the square root of 64, which over the extended reals is exactly the real 1/8.  The mask
  compares a row number with a column number as signed 32-bit words; both are below 2048, so the comparison is the
  comparison of the natural numbers, and the mask is one exactly where the key row is at most the query row.  The
  masked weight of a pair is then the second-order Taylor weight of the scaled inner product where the mask is one
  and the zero word elsewhere, and the result is the weighted sum of a column of V over the sum of the weights plus
  the small constant, every operand in the order in which the reference combines them.
-/
import proofs.«151636_j51659866636816_2_alg».proof.Proof.Gen.ReferenceIdeal.Read
import proofs.«151636_j51659866636816_2_alg».proof.Proof.Spec

noncomputable section

namespace Cert.TaylorAttn.Ref

open Idealize.ShloMosaic Idealize.ShloMosaic.ValueIdx Cert.ReferenceIdeal Cert.ReferenceIdeal.Gen Cert.ReferenceIdeal.Read Cert.TaylorAttn

/-- The float word of 64 denotes the real 64. -/
theorem ofBits_64 : Ideal.ofBits .f32 0x42800000#32 = ((64 : ℝ) : EReal) := by
  simp [Ideal.ofBits, Ideal.ieee, -EReal.coe_mul]; norm_num

/-- The float word of 1 denotes the real 1. -/
theorem ofBits_one : Ideal.ofBits .f32 0x3F800000#32 = ((1 : ℝ) : EReal) := by
  simp [Ideal.ofBits, Ideal.ieee, -EReal.coe_mul]; norm_num

/-- The scale: one over the square root of 64 is the real 1/8. -/
theorem scale_eq (j : S_.Idx) : val_main_v1 (F := Ideal) j = (((1 / 8 : ℝ) : ℝ) : EReal) := by
  rw [val_main_v1_apply, val_main_v0_apply, val_main_cst_0_apply, val_main_cst_apply, Ideal.hostDivf_def,
    Ideal.hostUnary_sqrt_def, Ideal.ofBits_def, Ideal.ofBits_def, ofBits_64, ofBits_one, Ideal.sqrt_coe,
    if_neg (by norm_num), show Real.sqrt 64 = 8 from by
      rw [show (64 : ℝ) = 8 ^ 2 from by norm_num]; exact Real.sqrt_sq (by norm_num),
    Ideal.div_coe (by norm_num)]
  rw [← EReal.coe_mul]; norm_num

/-- A number below 2048 as a 32-bit word, read signed, is that number. -/
theorem toInt_ofNat32 (n : Nat) (h : n < 2048) : (BitVec.ofNat 32 n).toInt = (n : Int) := by
  have hn : (BitVec.ofNat 32 n).toNat = n := by rw [BitVec.toNat_ofNat]; exact Nat.mod_eq_of_lt (by omega)
  rw [BitVec.toInt_eq_toNat_cond, hn]
  split <;> omega

/-- The lower-triangle mask: one where the column is at most the row. -/
theorem mask_eq (i : S2048x2048.Idx) :
    val_main_v12 (F := Ideal) i = if (i 1).val ≤ (i 0).val then 1#1 else 0#1 := by
  rw [val_main_v12_apply, val_main_v11_apply, val_main_c_apply, val_main_call0_v5_apply, val_main_call0_c_0_apply,
    val_main_call0_v4_apply, val_main_call0_v2_apply, val_main_call0_v0_apply, val_main_call0_v1_apply,
    val_main_call0_c_apply, val_main_call0_v3_apply]
  have h0 : IntOp.addi (BitVec.ofNat 32 (i 0).val) 0#32 = BitVec.ofNat 32 (i 0).val := by
    show BitVec.ofNat 32 (i 0).val + 0#32 = _
    exact BitVec.add_zero _
  rw [h0]
  by_cases h : (i 1).val ≤ (i 0).val
  · rw [if_pos h, (IntOp.cmpi_sge).mpr (by rw [toInt_ofNat32 _ (idx2_lt1 i), toInt_ofNat32 _ (idx2_lt0 i)]; exact_mod_cast h), select_one]
  · rw [if_neg h]
    have hc : IntOp.cmpi .sge (BitVec.ofNat 32 (i 0).val) (BitVec.ofNat 32 (i 1).val) = 0#1 :=
      eq_zero_of_ne_one (fun hh => h (by
        have := (IntOp.cmpi_sge).mp hh
        rw [toInt_ofNat32 _ (idx2_lt1 i), toInt_ofNat32 _ (idx2_lt0 i)] at this; exact_mod_cast this))
    rw [hc, select_zero]

/-- The masked weight of one pair, as the reference computes it, is the specification's. -/
theorem w_eq (Q K : Arr) (i : S4x16x2048x2048.Idx) :
    val_main_v13 (F := Ideal) Q K i
      = wR (Ideal.ofBits .f32 0x3F800000#32) (Ideal.ofBits .f32 0x3F000000#32) (Ideal.ofBits .f32 0x00000000#32)
          (((1 / 8 : ℝ) : ℝ) : EReal) Q K (i 0) (i 1) (i 2) (i 3) := by
  rw [val_main_v13_apply, val_main_call1_v1_apply, mask_eq, val_main_call1_v2_apply, val_main_call1_v0_apply,
    val_main_cst_3_apply, val_main_v10_apply, val_main_v6_apply, val_main_v9_apply, val_main_v5_apply,
    val_main_cst_1_apply, val_main_v8_apply, val_main_cst_2_apply, val_main_v7_apply, val_main_v4_apply,
    val_main_v3_apply, scale_eq, val_main_v2_apply]
  simp only [Ideal.mulf_def, Ideal.addf_def, Ideal.ofBits_def]
  have hl : ∀ k, lidx_main_v2 i k = ix4 (i 0) (i 1) (i 2) k := fun k => funext fun a => Fin.ext (by
    match a with | ⟨0, _⟩ => rfl | ⟨1, _⟩ => rfl | ⟨2, _⟩ => rfl | ⟨3, _⟩ => rfl)
  have hr : ∀ k, ridx_main_v2 i k = ix4 (i 0) (i 1) (i 3) k := fun k => funext fun a => Fin.ext (by
    match a with | ⟨0, _⟩ => rfl | ⟨1, _⟩ => rfl | ⟨2, _⟩ => rfl | ⟨3, _⟩ => rfl)
  simp only [hl, hr]
  unfold wR weight scoreR
  by_cases h : (i 3).val ≤ (i 2).val
  · rw [if_pos h, if_pos h, select_one]; rfl
  · rw [if_neg h, if_neg h, select_zero]

/-- The reference's result is the specification's all-rows-at-once arrangement. -/
theorem ref_eq (Q K V : Arr) : val_main_v20 (F := Ideal) Q K V
    = outR (Ideal.ofBits .f32 0x3F800000#32) (Ideal.ofBits .f32 0x3F000000#32) (Ideal.ofBits .f32 0x00000000#32)
        (Ideal.ofBits .f32 0x358637BD#32) (((1 / 8 : ℝ) : ℝ) : EReal) Q K V := by
  funext i
  rw [val_main_v20_apply, val_main_v18_apply, val_main_v19_apply, val_main_v17_apply, val_main_v15_apply,
    val_main_v16_apply, val_main_cst_5_apply, val_main_v14_apply, val_main_cst_4_apply, Ideal.hostDivf_def,
    Ideal.addf_def]
  simp only [w_eq, Ideal.ofBits_def]
  have hv : ∀ k, ridx_main_v18 i k = ix4 (i 0) (i 1) k (i 3) := fun k => funext fun a => Fin.ext (by
    match a with | ⟨0, _⟩ => rfl | ⟨1, _⟩ => rfl | ⟨2, _⟩ => rfl | ⟨3, _⟩ => rfl)
  simp only [hv]
  unfold outR
  rfl

end Cert.TaylorAttn.Ref

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.TileSum.lean ====
/-
  The two arrangements of the causal second-order Taylor attention are the same function when Q and K are real valued.

  Three facts make it so.  First, for real numbers the scale can be moved across the inner product:
  the sum of (Q e * c) * K e is (the sum of Q e * K e) * c.  On the extended reals this law fails at the infinities, so
  it is proved on real witnesses of the entries and carried back through the coercion.  Second, a sum over the 2048
  key rows is the sum over the first 1024 plus the sum over the last 1024 (only commutativity and associativity of the
  addition).  Third, the causal mask: a key row of the second tile lies after every query row of the first tile, so its
  weight is zero and the whole second tile contributes 0; a key row of the first tile lies before every query row of
  the second tile, so it is never masked; and inside one tile the mask compares the local positions.
  Zero times anything is zero and x + 0 = x hold for every extended real, so nothing else has to be finite.
-/
import proofs.«151636_j51659866636816_2_alg».proof.Proof.Spec
import proofs.«151636_j51659866636816_2_alg».proof.Proof.LibRealValued
import proofs.«151636_j51659866636816_2_alg».proof.Proof.LibChunkSum

noncomputable section

namespace Cert.TaylorAttn

open Idealize.ShloMosaic Idealize.ShloMosaic.ValueIdx Cert.RealValued

/-! ## The scale moves across the inner product of real rows -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- For real rows, scaling the query row first or the inner product afterwards gives the same score. -/
theorem scoreK_eq_scoreR (c : ℝ) (Q K : Arr) (hQ : ∀ i, IsReal (Q i)) (hK : ∀ i, IsReal (K i))
    (b : Fin 4) (h : Fin 16) (q k : Fin 2048) :
    scoreK (c : EReal) Q K b h q k = scoreR (c : EReal) Q K b h q k := by
  choose qf hqf using hQ
  choose kf hkf using hK
  unfold scoreK scoreR
  simp only [hqf, hkf, ← EReal.coe_mul, ← coe_sum]
  rw [Finset.sum_mul]
  refine congrArg _ (Finset.sum_congr rfl fun e _ => ?_)
  ring

/-- The unmasked weight of the tiled arrangement is the weight of the other arrangement's score. -/
theorem wK_eq (one half : EReal) (c : ℝ) (Q K : Arr) (hQ : ∀ i, IsReal (Q i)) (hK : ∀ i, IsReal (K i))
    (b : Fin 4) (h : Fin 16) (q k : Fin 2048) :
    wK one half (c : EReal) Q K b h q k = weight one half (scoreR (c : EReal) Q K b h q k) := by
  unfold wK
  rw [scoreK_eq_scoreR c Q K hQ hK]

/-! ## The mask, tile against tile -/

/-- Query row and key row in the same tile: the mask compares the positions inside the tile. -/
theorem wR_diag (one half : EReal) (c : ℝ) (Q K : Arr) (hQ : ∀ i, IsReal (Q i)) (hK : ∀ i, IsReal (K i))
    (b : Fin 4) (h : Fin 16) (t : Fin 2) (p j : Fin 1024) :
    wR one half 0 (c : EReal) Q K b h (row t p) (row t j) = wD one half 0 (c : EReal) Q K b h t p j := by
  unfold wR wD
  rw [wK_eq one half c Q K hQ hK]
  by_cases hjp : j.val ≤ p.val
  · have h' : (row t j).val ≤ (row t p).val := by
      simp only [ChunkSum.at_val]; omega
    rw [if_pos hjp, if_pos h']
  · have h' : ¬ (row t j).val ≤ (row t p).val := by
      simp only [ChunkSum.at_val]; omega
    rw [if_neg hjp, if_neg h']

/-- A key row of the second tile lies after every query row of the first tile: its weight is zero. -/
theorem wR_above (one half cR : EReal) (Q K : Arr) (b : Fin 4) (h : Fin 16) (p j : Fin 1024) :
    wR one half 0 cR Q K b h (row 0 p) (row 1 j) = 0 := by
  unfold wR
  have hp := p.isLt
  have h' : ¬ (row 1 j).val ≤ (row 0 p).val := by
    simp only [ChunkSum.at_val, Fin.val_zero, Fin.val_one]; omega
  rw [if_neg h']

/-- A key row of the first tile lies before every query row of the second tile: it is not masked. -/
theorem wR_below (one half : EReal) (c : ℝ) (Q K : Arr) (hQ : ∀ i, IsReal (Q i)) (hK : ∀ i, IsReal (K i))
    (b : Fin 4) (h : Fin 16) (p j : Fin 1024) :
    wR one half 0 (c : EReal) Q K b h (row 1 p) (row 0 j) = wK one half (c : EReal) Q K b h (row 1 p) (row 0 j) := by
  unfold wR
  rw [wK_eq one half c Q K hQ hK]
  have hj := j.isLt
  have h' : (row 0 j).val ≤ (row 1 p).val := by
    simp only [ChunkSum.at_val, Fin.val_zero, Fin.val_one]; omega
  rw [if_pos h']

/-! ## A sum over the 2048 rows, tile by tile -/

/-- The sum over all rows is the sum over the first tile plus the sum over the second tile. -/
theorem sum_split {M : Type} [AddCommMonoid M] (f : Fin 2048 → M) :
    ∑ k : Fin 2048, f k = (∑ j : Fin 1024, f (row 0 j)) + ∑ j : Fin 1024, f (row 1 j) := by
  rw [← ChunkSum.sum_chunks (n := 2) (m := 1024) (N := 2048) rfl f, Fin.sum_univ_two]

/-- The weighted sum for a query row of the first tile. -/
theorem num0 (one half : EReal) (c : ℝ) (Q K V : Arr) (hQ : ∀ i, IsReal (Q i)) (hK : ∀ i, IsReal (K i))
    (b : Fin 4) (h : Fin 16) (p : Fin 1024) (d : Fin 64) :
    ∑ k : Fin 2048, wR one half 0 (c : EReal) Q K b h (row 0 p) k * V (ix4 b h k d)
      = acc0 one half 0 (c : EReal) Q K V b h p d := by
  unfold acc0
  rw [sum_split, zero_add]
  simp only [wR_diag one half c Q K hQ hK, wR_above, zero_mul, Finset.sum_const_zero, add_zero]

/-- The sum of the weights for a query row of the first tile. -/
theorem dnm0 (one half : EReal) (c : ℝ) (Q K : Arr) (hQ : ∀ i, IsReal (Q i)) (hK : ∀ i, IsReal (K i))
    (b : Fin 4) (h : Fin 16) (p : Fin 1024) :
    0 + ∑ k : Fin 2048, wR one half 0 (c : EReal) Q K b h (row 0 p) k
      = den0 one half 0 (c : EReal) Q K b h p := by
  unfold den0
  rw [sum_split]
  simp only [wR_diag one half c Q K hQ hK, wR_above, Finset.sum_const_zero, add_zero]

/-- The weighted sum for a query row of the second tile. -/
theorem num1 (one half : EReal) (c : ℝ) (Q K V : Arr) (hQ : ∀ i, IsReal (Q i)) (hK : ∀ i, IsReal (K i))
    (b : Fin 4) (h : Fin 16) (p : Fin 1024) (d : Fin 64) :
    ∑ k : Fin 2048, wR one half 0 (c : EReal) Q K b h (row 1 p) k * V (ix4 b h k d)
      = acc1 one half 0 (c : EReal) Q K V b h p d := by
  unfold acc1
  rw [sum_split, zero_add]
  simp only [wR_diag one half c Q K hQ hK, wR_below one half c Q K hQ hK]

/-- The sum of the weights for a query row of the second tile. -/
theorem dnm1 (one half : EReal) (c : ℝ) (Q K : Arr) (hQ : ∀ i, IsReal (Q i)) (hK : ∀ i, IsReal (K i))
    (b : Fin 4) (h : Fin 16) (p : Fin 1024) :
    0 + ∑ k : Fin 2048, wR one half 0 (c : EReal) Q K b h (row 1 p) k
      = den1 one half 0 (c : EReal) Q K b h p := by
  unfold den1
  rw [sum_split, zero_add, zero_add]
  simp only [wR_diag one half c Q K hQ hK, wR_below one half c Q K hQ hK]

/-! ## The two arrangements agree -/

/-- An index below 2 is 0 or 1. -/
theorem fin_two_cases (c : Fin 2) : c = 0 ∨ c = 1 := by
  rcases c with ⟨v, hv⟩
  rcases v with _ | _ | v
  · exact Or.inl rfl
  · exact Or.inr rfl
  · omega

/-- For real valued Q and K the tile-by-tile arrangement is the all-rows-at-once arrangement, read at a row of
    a tile. -/
theorem tile_eq (one half eps : EReal) (Q K V : Arr) (hQ : ∀ i, IsReal (Q i)) (hK : ∀ i, IsReal (K i))
    (b : Fin 4) (h : Fin 16) (c : Fin 2) (p : Fin 1024) (d : Fin 64) :
    tileOut one half 0 eps (((1/8 : ℝ) : ℝ) : EReal) Q K V b h c p d
      = outR one half 0 eps (((1/8 : ℝ) : ℝ) : EReal) Q K V (ix4 b h (row c p) d) := by
  rcases fin_two_cases c with rfl | rfl
  · unfold tileOut outR
    rw [if_pos rfl]
    show _ = Ideal.div
      (∑ k : Fin 2048, wR one half 0 (((1/8 : ℝ) : ℝ) : EReal) Q K b h (row 0 p) k * V (ix4 b h k d))
      ((0 + ∑ k : Fin 2048, wR one half 0 (((1/8 : ℝ) : ℝ) : EReal) Q K b h (row 0 p) k) + eps)
    rw [num0 one half (1/8) Q K V hQ hK, dnm0 one half (1/8) Q K hQ hK]
  · unfold tileOut outR
    rw [if_neg (by decide)]
    show _ = Ideal.div
      (∑ k : Fin 2048, wR one half 0 (((1/8 : ℝ) : ℝ) : EReal) Q K b h (row 1 p) k * V (ix4 b h k d))
      ((0 + ∑ k : Fin 2048, wR one half 0 (((1/8 : ℝ) : ℝ) : EReal) Q K b h (row 1 p) k) + eps)
    rw [num1 one half (1/8) Q K V hQ hK, dnm1 one half (1/8) Q K hQ hK]

/-! ## The two float words the programs spell -/

/-- The f32 word of 0.125 denotes the real number 1/8. -/
theorem ofBits_eighth : Ideal.ofBits .f32 0x3E000000#32 = (((1/8 : ℝ) : ℝ) : EReal) := by
  simp [Ideal.ofBits, Ideal.ieee, -EReal.coe_mul]; norm_num

/-- The f32 word of +0.0 denotes 0. -/
theorem ofBits_zero' : Ideal.ofBits .f32 0x00000000#32 = 0 := by
  simp [Ideal.ofBits, Ideal.ieee]

end Cert.TaylorAttn

end
-- ==== Proof.Bridge.lean ====
/-
  The reference's result and the kernel's result are one function of the argument arrays, when Q and K hold real numbers.

  The reference's result, read operation by operation, is the all-rows-at-once formula.  The kernel's result is the
  tile-by-tile formula on the flattened array, reshaped back.  At (b, h, r, d) the reshape reads the flattened array at
  (16 b + h, r, d), whose formula is the one for batch b, head h, query tile r / 1024 and local row r % 1024; the
  tile-by-tile formula equals the all-rows formula there because moving the scale 1/8 out of the inner product is valid
  for real numbers, the masked weights agree, and the sum over 2048 rows splits into the two tiles.  The zero word is 0
  and the scale word 0x3E000000 is exactly 1/8, the same 1/8 the reference obtains as 1 / sqrt 64.
-/
import proofs.«151636_j51659866636816_2_alg».proof.Proof.IdealResult
import proofs.«151636_j51659866636816_2_alg».proof.Proof.RefSide
import proofs.«151636_j51659866636816_2_alg».proof.Proof.TileSum

set_option maxRecDepth 16384

noncomputable section

namespace Cert.Proof.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.TaylorAttn
open Cert.KernelIdeal.Val Cert.RealValued

local notation "ONE" => Ideal.ofBits FTy.f32 0x3F800000#32
local notation "HALF" => Ideal.ofBits FTy.f32 0x3F000000#32
local notation "ZERO" => Ideal.ofBits FTy.f32 0x00000000#32
local notation "EPS" => Ideal.ofBits FTy.f32 0x358637BD#32
local notation "C8" => Ideal.ofBits FTy.f32 0x3E000000#32

theorem result_eq (Q K V : Arr) (hQ : ∀ i, IsReal (Q i)) (hK : ∀ i, IsReal (K i)) :
    Cert.ReferenceIdeal.Read.val_main_v20 (F := Ideal) Q K V = Res Q K V := by
  rw [Cert.TaylorAttn.Ref.ref_eq]
  funext i
  obtain ⟨b, h, r, d, rfl⟩ : ∃ (b : Fin 4) (h : Fin 16) (r : Fin 2048) (d : Fin 64), i = ix4 b h r d :=
    ⟨i 0, i 1, i 2, i 3, eq_ix4 i⟩
  have hb := b.isLt
  have hh := h.isLt
  obtain ⟨g, hg⟩ : ∃ g : Fin 64, g.val = b.val * 16 + h.val := ⟨⟨b.val * 16 + h.val, by omega⟩, rfl⟩
  unfold Res
  rw [Cert.KernelIdeal.Host.shapeCast_back_apply _ b h g hg r d]
  show _ = tileOut ONE HALF ZERO EPS C8 Q K V (bOf g) (hOf g) (cOf r) (pOf r) d
  rw [bOf_mk b h g hg, hOf_mk b h g hg, ofBits_zero', ofBits_eighth, tile_eq ONE HALF EPS Q K V hQ hK b h (cOf r) (pOf r) d,
    row_cOf_pOf]

end Cert.Proof.Bridge

end
-- ==== Proof.FiniteInputs.lean ====
/-
  The precondition "every entry of q, k and v is finite" read back as a fact about extended reals.

  The printed precondition is the conjunction of three tests, one per array: every entry has |x| < +inf.  Over the
  extended reals |x| = max x (-x) is +inf exactly at the two infinities, so each test says that every entry of its
  array is a real number.
-/
import proofs.«151636_j51659866636816_2_alg».proof.Pre_finite_inputs
import proofs.«151636_j51659866636816_2_alg».proof.Proof.LibRealValued
import Idealize.ShloMosaic.Lib.Affine

noncomputable section

namespace Cert.TaylorAttn.Finite

open Idealize.ShloMosaic Idealize.ShloMosaic.ValueIdx Cert.RealValued

/-- If the finiteness test of the three arrays is all ones, every entry of each array is a real number. -/
theorem isReal_of_pre [Cert.Pre_finite_inputs.Facts]
    (q k v : FVec Ideal Cert.Pre_finite_inputs.S4x16x2048x64 .f32)
    (h : Cert.Pre_finite_inputs.fn (F := Ideal) q k v = fun _ => 1#1) :
    (∀ i, IsReal (q i)) ∧ (∀ i, IsReal (k i)) ∧ (∀ i, IsReal (v i)) := by
  have h0 := congrFun h ix0
  dsimp only [Cert.Pre_finite_inputs.fn, andi] at h0
  obtain ⟨h12, h3⟩ := IntOp.andi_eq_one.mp h0
  obtain ⟨h1, h2⟩ := IntOp.andi_eq_one.mp h12
  exact ⟨all_isReal q _ _ _ _ h1, all_isReal k _ _ _ _ h2, all_isReal v _ _ _ _ h3⟩

end Cert.TaylorAttn.Finite

end
-- ==== Proof.lean ====
/-
  Causal attention with a second-order Taylor weight: a tiled kernel against its plain reference, equal as extended reals.

  Both programs compute, for q, k, v of shape [4, 16, 2048, 64] and every (b, h, query row, d),
      (∑ over key rows k ≤ q of w(q, k) · v[k, d]) / ((∑ over k ≤ q of w(q, k)) + 1e-6),   w = 1 + s + s²/2,
  with s the inner product of the query row and the key row scaled by 1/8.  The reference scales the inner product by
  1 / sqrt 64 and sums over all 2048 key rows under a lower-triangular mask.  The kernel flattens batch and head, scales
  the query row by the word 0.125 before the inner product, and meets the key rows in two tiles of 1024: a tile below the
  diagonal is added whole, the diagonal tile under the mask of the positions inside the tile, a tile above the diagonal is
  never met; two accumulators carry the sums from one grid point to the next, and the quotient is stored at the last key
  tile.  The two agree because sqrt 64 = 8 exactly, because moving the factor 1/8 across the inner product is valid for real
  numbers (the one place the finiteness of the inputs is used), and because a sum over 2048 rows is the sum of its two
  halves, the masked-out half being a sum of zeros.

  The three frames: each kernel program is run point by point through the pipeline with the accumulators' contents
  between points given in closed form; the reference is a straight line of host operations.  The idealization rewrote no
  operation, so nothing is owed for it.
-/
import proofs.«151636_j51659866636816_2_alg».proof.Defs
import proofs.«151636_j51659866636816_2_alg».proof.Proof.Gen.Kernel
import proofs.«151636_j51659866636816_2_alg».proof.Proof.Gen.KernelIdeal
import proofs.«151636_j51659866636816_2_alg».proof.Proof.Gen.ReferenceIdeal
import proofs.«151636_j51659866636816_2_alg».proof.Proof.Gen.Pre_finite_inputs
import proofs.«151636_j51659866636816_2_alg».proof.Proof.Gen.ReferenceIdeal.Read
import proofs.«151636_j51659866636816_2_alg».proof.Proof.BitsFrame
import proofs.«151636_j51659866636816_2_alg».proof.Proof.IdealResult
import proofs.«151636_j51659866636816_2_alg».proof.Proof.Bridge
import proofs.«151636_j51659866636816_2_alg».proof.Proof.FiniteInputs

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame (F := Bits) m ρ

/-- The idealized kernel runs and leaves its arguments unchanged. -/
theorem frame_kernelIdeal : Cert.frame_KernelIdeal := fun m ρ _ => Cert.KernelIdeal.Gen.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on q, k, v, both programs end with the same result array: the kernel's is the tile-by-tile
    formula, the reference's the all-rows formula, and the two are one function of finite arguments. -/
theorem algebraic : Cert.algebraic_KernelIdeal_ReferenceIdeal := by
  intro m ρ m' ρ' hpre hagree
  refine ⟨fun c => Cert.KernelIdeal.Val.Res (Cert.KernelIdeal.Val.Qa m c) (Cert.KernelIdeal.Val.Ka m c) (Cert.KernelIdeal.Val.Va m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, -⟩ := Cert.TaylorAttn.Finite.isReal_of_pre _ _ _ (hpre c)
  rw [(hagree c).1, (hagree c).2.1, (hagree c).2.2]
  exact (Cert.ReferenceIdeal.Read.val_main_v20_eq _ _ _).trans (Cert.Proof.Bridge.result_eq _ _ _ hQ hK)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
